-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .bf16⟩
  | .hbm, ⟨5, _⟩ => ⟨S1x512, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | .local _ .vmem, ⟨5, _⟩ => ⟨S1024x2048, .f32⟩
  | .local _ .vmem, ⟨6, _⟩ => ⟨S1024x2048, .f32⟩
  | .local _ .vmem, ⟨7, _⟩ => ⟨S8192x512, .bf16⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S512x512_S512x512_S512x512_1_0_0_1_n_n_wf : DotDims.WF S512x512 S512x512 S512x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .bf16 = 32 ∨ (Rect.block (s := S8192x512) S512x512.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.Proj.lean ====
/-
  The projection region (the first kernel launch): support = inp · weight, one block of 512 rows of inp per grid
  point against the whole weight, the product rounded to bf16 on its way out.  Stated at a PARAMETER V, the
  TensorCore's buffer contents when the region is entered.

  What the body leaves in the output window's buffer is one covering store of the product of the two loaded
  blocks (projOut); each input buffer holds its block at every point whether or not the pipeline fetched it
  there (the weight is fetched once and stays).  From these: the pipeline's proof data and its body obligation.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of inp the point works on sit in its buffer at every point. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The weight sits in its buffer at every point: fetched at the first, its block index never moves. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The whole 512×512 buffer as a rectangle. -/
abbrev rP : Rect S512x512 := Rect.unit (s := S512x512) ![0, 0] S512x512.size inb_S512x512_S512x512_0_0

/-- What the body leaves in the output buffer: its one store, of the product of the two loaded blocks. -/
def projOut (x0 x1 : Vec F S512x512 .f32) : Vec F S512x512 .bf16 :=
  View.canon [⟨rP, k0_pay1 (View.ld x0 rP) (View.ld x1 rP)⟩]

theorem projCover (p0 : Vec F S512x512 .bf16) (y : S512x512.Idx) :
    ∃ pc ∈ ([⟨rP, p0⟩] : List (View.Piece (Elt F) S512x512 .bf16)), y ∈ pc.1.set :=
  View.cover_of_tiled [⟨rP, p0⟩] S512x512.size (by rfl) y

set_option maxHeartbeats 1000000 in
/-- The body on whole buffers, the inputs at x0, x1 and the output at anything, runs and leaves the inputs as they
    were and the output at projOut x0 x1. -/
theorem projKernel (c : Dev nD) (E : Set ℕ) (i : grid0.Coords) (arg1 : Memref sig .tc .vmem S512x512 .f32) (harg1 : arg1.IsWhole)
    (arg2 : Memref sig .tc .vmem S512x512 .f32) (harg2 : arg2.IsWhole) (arg3 : Memref sig .tc .vmem S512x512 .bf16) (harg3 : arg3.IsWhole)
    (x0 x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The pipeline's proof data: the arrays as the region finds them; after the body each input buffer at its block,
    the output buffer at the product of the point's blocks; the invariant the scoped rest and the generator
    register, untouched; nothing owed. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projA (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projOut (projBlk V c 0 t) (projBlk V c 1 t) := by dsimp only [projDat]

theorem projBefore0 (c : Dev nD) (t : Fin cfg0.N) (d) : (projDat V c).before 0 t d = projBlk V c 0 t :=
  projBefore0_of V (projDat V c) (projA V c 0) (projAfter0 V c) t d
theorem projBefore1 (c : Dev nD) (t : Fin cfg0.N) (d) : (projDat V c).before 1 t d = projBlk V c 1 t :=
  projBefore1_of V (projDat V c) (projA V c 1) (projAfter1 V c) t d

def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projKernel c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem projObligation (c : Dev nD) : BodyObligation (projDat (F := F) V c) (defs₀ (F := F)) Variants.none () Set.univ := fun t => by
  rw [bigSep_W0, bigSep_W0]
  exact projBody V c t

end Region

end Cert.Kernel.GC

end
-- ==== Proof.K.ConvShared.lean ====
/-
  The aggregation region (the second kernel launch), what its case runs share.  The grid is 8 row blocks of adj
  by 4 column chunks; the body clears a 1024×512 accumulator at chunk 0, adds adj-block · support-rows into it at
  every chunk, and at chunk 3 stores accumulator + bias into the output block.  The two branch conditions as
  propositions over the grid coordinates, decided over the grid in closed form; where the output window is idle;
  the accumulator as a memref; the class invariant with the accumulator split out.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator: the chunk coordinate is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The body stores the output block: the chunk coordinate is 3. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The output window is idle, and not written back, exactly off the last chunk. -/
theorem outIdle : ∀ t : Fin cfg1.N, ¬isLast (grid1.coords t) → cfg1.idle 3 (grid1.coords t) = true := by decide +kernel
theorem outNoFlush : ∀ t : Fin cfg1.N, ¬isLast (grid1.coords t) → (cfg1.win 3).flush t = false := by decide +kernel
theorem outLive : ∀ t : Fin cfg1.N, isLast (grid1.coords t) → cfg1.idle 3 (grid1.coords t) = false := by decide +kernel
theorem inLive0 : ∀ t : Fin cfg1.N, cfg1.idle 0 (grid1.coords t) = false := by decide +kernel
theorem inLive1 : ∀ t : Fin cfg1.N, cfg1.idle 1 (grid1.coords t) = false := by decide +kernel
theorem inLive2 : ∀ t : Fin cfg1.N, cfg1.idle 2 (grid1.coords t) = false := by decide +kernel

/-- The accumulator: a whole scoped buffer of the kernel's own. -/
abbrev accM : Memref sig .tc .vmem S1024x512 .f32 := Memref.whole cc1_scratch0
/-- A view through which the accumulator's and the output buffer's contents are stated (the choice does not matter). -/
abbrev accV : View sig .tc .vmem S1024x512 .f32 := accM.view

/-- The other region's staging buffers, which this region never touches, each at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The scoped buffers no window of this region stages: the other region's staging buffers and the accumulator. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) := by
  rw [scopedRest1_eq]; simp only [accM, owns_whole]; rfl

end Cert.Kernel.GC

end
-- ==== Proof.K.ConvRunFirst.lean ====
/-
  The aggregation body at the first chunk of a row block: it clears the accumulator, reads the zeros back, adds
  this chunk's product and stores the sum; the output buffer is left alone.  The run finds the accumulator's
  pieces.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.K.ConvShared
set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces after the body at a first chunk (the accumulator entered at anything), with the
    body's run on whole buffers: inputs and the output buffer handed back as found. -/
noncomputable def runFirst (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i)
    (x0 : Vec F S1024x2048 .f32) (x1 : Vec F S8192x512 .bf16) (x2 : Vec F S1x512 .f32) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg2 harg2 arg3 harg3 arg4 harg4 arg5 harg5 arg6 harg6) K } := by
  refine ⟨[], ?_, fun xi3 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.GC

end
-- ==== Proof.K.ConvRunMid.lean ====
/-
  The aggregation body at a middle chunk: it adds this chunk's product to the accumulator the chunk before left;
  the output buffer is left alone.  The run finds the accumulator's pieces.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.K.ConvShared
set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces after the body at a middle chunk (the accumulator entered at xs), with the body's run. -/
noncomputable def runMid (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i)
    (x0 : Vec F S1024x2048 .f32) (x1 : Vec F S8192x512 .bf16) (x2 : Vec F S1x512 .f32) (xs : Vec F S1024x512 .f32) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg2 harg2 arg3 harg3 arg4 harg4 arg5 harg5 arg6 harg6) K } := by
  refine ⟨[], ?_, fun xi3 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.GC

end
-- ==== Proof.K.ConvRunLast.lean ====
/-
  The aggregation body at the last chunk: it adds this chunk's product to the accumulator, reads the total back,
  and stores total + bias (the bias row laid over the 1024 rows) into the output buffer.  The run finds the
  accumulator's and the output buffer's pieces.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.K.ConvShared
set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The output buffer's and the accumulator's pieces after the body at a last chunk (the accumulator entered at
    xs, the output buffer at anything), with the body's run. -/
noncomputable def runLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i)
    (x0 : Vec F S1024x2048 .f32) (x1 : Vec F S8192x512 .bf16) (x2 : Vec F S1x512 .f32) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg2 harg2 arg3 harg3 arg4 harg4 arg5 harg5 arg6 harg6) K } := by
  refine ⟨?_, ?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.GC

end
-- ==== Proof.K.Conv.lean ====
/-
  The aggregation region at a PARAMETER V (the TensorCore's buffer contents when the region is entered): what the
  accumulator holds after each grid point, by recursion on the point (accAt: cleared and refilled at the first
  chunk of a row block, added to at the later chunks), what the output buffer holds after a last chunk (outAt),
  the region invariant that carries the accumulator from point to point, the pipeline's proof data and its body
  obligation, case by case.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.K.ConvRunFirst
import proofs.«152907_j996432413322_2_alg».proof.Proof.K.ConvRunMid
import proofs.«152907_j996432413322_2_alg».proof.Proof.K.ConvRunLast
set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The chunk of a point, from the closed forms -/

theorem first_of {t : Fin cfg1.N} (h : t.val % 4 = 0) : isFirst (grid1.coords t) := (isFirst_iff t).mpr h
theorem notFirst_of {t : Fin cfg1.N} (h : ¬t.val % 4 = 0) : ¬isFirst (grid1.coords t) := fun hf => h ((isFirst_iff t).mp hf)
theorem last_of {t : Fin cfg1.N} (h : t.val % 4 = 3) : isLast (grid1.coords t) := (isLast_iff t).mpr h
theorem notLast_of {t : Fin cfg1.N} (h : ¬t.val % 4 = 3) : ¬isLast (grid1.coords t) := fun hl => h ((isLast_iff t).mp hl)
theorem notLast_of_first {t : Fin cfg1.N} (h : t.val % 4 = 0) : ¬isLast (grid1.coords t) :=
  notLast_of (by omega)
theorem notFirst_of_last {t : Fin cfg1.N} (h : t.val % 4 = 3) : ¬isFirst (grid1.coords t) :=
  notFirst_of (by omega)

/-! ## The buffers at a point -/

abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .f32 := win1_3.stage (cfg1.slots t 3)
abbrev hs3 (t : Fin cfg1.N) : (ms3 t).IsWhole := hstage1_3 ((cfg1.slots t 3).cast nbuf1_3)

/-! ## What each case leaves: the found pieces cover their buffers, and are read back as contents -/

theorem accCoverFirst (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i) (x0 : Vec F S1024x2048 .f32) (x1 : Vec F S8192x512 .bf16) (x2 : Vec F S1x512 .f32) (y : S1024x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x512.size (by sl_kernel_rfl) y

/-- The accumulator after a first chunk. -/
def accFirst (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i) (x0 : Vec F S1024x2048 .f32) (x1 : Vec F S8192x512 .bf16) (x2 : Vec F S1x512 .f32) : Vec F S1024x512 .f32 :=
  accV.read (Elt F) (accV.writes (Elt F) accV.junk (runFirst c i arg2 harg2 arg3 harg3 arg4 harg4 arg5 harg5 arg6 harg6 hc0 hc1 x0 x1 x2).2.1)

theorem accCoverMid (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i) (x0 : Vec F S1024x2048 .f32) (x1 : Vec F S8192x512 .bf16) (x2 : Vec F S1x512 .f32) (xs : Vec F S1024x512 .f32) (y : S1024x512.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S1024x512.size (by sl_kernel_rfl) y

/-- The accumulator after a middle chunk, entered at xs. -/
def accMid (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i) (x0 : Vec F S1024x2048 .f32) (x1 : Vec F S8192x512 .bf16) (x2 : Vec F S1x512 .f32) (xs : Vec F S1024x512 .f32) : Vec F S1024x512 .f32 :=
  accV.read (Elt F) (accV.writes (Elt F) accV.junk (runMid c i arg2 harg2 arg3 harg3 arg4 harg4 arg5 harg5 arg6 harg6 hc0 hc1 x0 x1 x2 xs).2.1)

theorem accCoverLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x512.size (by sl_kernel_rfl) y

/-- The accumulator after a last chunk, entered at xs. -/
def accLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) : Vec F S1024x512 .f32 :=
  accV.read (Elt F) (accV.writes (Elt F) accV.junk (runLast c i arg2 harg2 arg3 harg3 arg4 harg4 arg5 harg5 arg6 harg6 hc0 hc1 x0 x1 x2 xs).2.1)

theorem outCoverLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x512.size (by sl_kernel_rfl) y

/-- The output buffer after a last chunk, the accumulator entered at xs. -/
def outLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) : Vec F S1024x512 .f32 :=
  accV.read (Elt F) (accV.writes (Elt F) accV.junk (runLast c i arg2 harg2 arg3 harg3 arg4 harg4 arg5 harg5 arg6 harg6 hc0 hc1 x0 x1 x2 xs).1)

section Region
variable (V : (c : Dev nD) → (b : Ref sig .tc) → Buf (Elt F) ((c : Thread nD τ).loc b))

/-- Window w's block at point t, read off its array as the region finds it. -/
def convBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input buffer holds its window's block at every point, fetched there or not. -/
theorem convBefore0_of {c : Dev nD} (dat : Dat τ (Elt F) Unit ℕ (UR sig nD τ) ℕ cfg1 c) (hA : dat.A 0 = V c (Pipeline.arrRef spec1 0))
    (hafter : ∀ t, dat.after 0 t = convBlk V c 0 t) (t : Fin cfg1.N) (d) : dat.before 0 t d = convBlk V c 0 t :=
  (dat.before_in_eq_fetched 0 rfl (fun _ => rfl) (fun _ _ _ => rfl) (fun t => by rw [hafter]; unfold Dat.blockOf convBlk; rw [hA]; try rfl) t d).trans
    (by unfold Dat.fetched Dat.blockOf convBlk; rw [hA]; try rfl)
theorem convBefore1_of {c : Dev nD} (dat : Dat τ (Elt F) Unit ℕ (UR sig nD τ) ℕ cfg1 c) (hA : dat.A 1 = V c (Pipeline.arrRef spec1 1))
    (hafter : ∀ t, dat.after 1 t = convBlk V c 1 t) (t : Fin cfg1.N) (d) : dat.before 1 t d = convBlk V c 1 t :=
  (dat.before_in_eq_fetched 1 rfl (fun _ => rfl) (fun _ _ _ => rfl) (fun t => by rw [hafter]; unfold Dat.blockOf convBlk; rw [hA]; try rfl) t d).trans
    (by unfold Dat.fetched Dat.blockOf convBlk; rw [hA]; try rfl)
theorem convBefore2_of {c : Dev nD} (dat : Dat τ (Elt F) Unit ℕ (UR sig nD τ) ℕ cfg1 c) (hA : dat.A 2 = V c (Pipeline.arrRef spec1 2))
    (hafter : ∀ t, dat.after 2 t = convBlk V c 2 t) (t : Fin cfg1.N) (d) : dat.before 2 t d = convBlk V c 2 t :=
  (dat.before_in_eq_fetched 2 rfl (fun _ => rfl) (fun _ _ _ => rfl) (fun t => by rw [hafter]; unfold Dat.blockOf convBlk; rw [hA]; try rfl) t d).trans
    (by unfold Dat.fetched Dat.blockOf convBlk; rw [hA]; try rfl)

/-! ## The accumulation -/

/-- What the accumulator holds after the body at position n: at the first chunk of a row block the case's
    contents from scratch, at the later chunks the case's contents over what position n − 1 left. -/
def accAt (c : Dev nD) : (n : ℕ) → n < cfg1.N → Vec F S1024x512 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) (first_of (Nat.zero_mod _)) (notLast_of_first (Nat.zero_mod _)) (convBlk V c 0 ⟨0, hn⟩) (convBlk V c 1 ⟨0, hn⟩) (convBlk V c 2 ⟨0, hn⟩)
  | n + 1, hn =>
    if h0 : (n + 1) % 4 = 0 then
      accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (first_of h0) (notLast_of_first h0) (convBlk V c 0 ⟨n + 1, hn⟩) (convBlk V c 1 ⟨n + 1, hn⟩) (convBlk V c 2 ⟨n + 1, hn⟩)
    else
      if h1 : (n + 1) % 4 = 3 then
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (notFirst_of h0) (last_of h1) (convBlk V c 0 ⟨n + 1, hn⟩) (convBlk V c 1 ⟨n + 1, hn⟩) (convBlk V c 2 ⟨n + 1, hn⟩) (accAt c n (Nat.lt_of_succ_lt hn))
      else
        accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (notFirst_of h0) (notLast_of h1) (convBlk V c 0 ⟨n + 1, hn⟩) (convBlk V c 1 ⟨n + 1, hn⟩) (convBlk V c 2 ⟨n + 1, hn⟩) (accAt c n (Nat.lt_of_succ_lt hn))

theorem accAt_first (c : Dev nD) (t : Fin cfg1.N) (h0 : t.val % 4 = 0) :
    accAt V c t.val t.isLt = accFirst c (grid1.coords t) (ms0 t) (hs0 t) (ms1 t) (hs1 t) (ms2 t) (hs2 t) (ms3 t) (hs3 t) accM (Memref.isWhole_whole _) (first_of h0) (notLast_of_first h0) (convBlk V c 0 t) (convBlk V c 1 t) (convBlk V c 2 t) := by
  obtain ⟨n, hn⟩ := t
  cases n with
  | zero => rfl
  | succ n => exact dif_pos h0

theorem accAt_mid (c : Dev nD) (t : Fin cfg1.N) (h0 : ¬t.val % 4 = 0) (h1 : ¬t.val % 4 = 3) :
    accAt V c t.val t.isLt = accMid c (grid1.coords t) (ms0 t) (hs0 t) (ms1 t) (hs1 t) (ms2 t) (hs2 t) (ms3 t) (hs3 t) accM (Memref.isWhole_whole _) (notFirst_of h0) (notLast_of h1) (convBlk V c 0 t) (convBlk V c 1 t) (convBlk V c 2 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_last (c : Dev nD) (t : Fin cfg1.N) (h0 : ¬t.val % 4 = 0) (h1 : t.val % 4 = 3) :
    accAt V c t.val t.isLt = accLast c (grid1.coords t) (ms0 t) (hs0 t) (ms1 t) (hs1 t) (ms2 t) (hs2 t) (ms3 t) (hs3 t) accM (Memref.isWhole_whole _) (notFirst_of h0) (last_of h1) (convBlk V c 0 t) (convBlk V c 1 t) (convBlk V c 2 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- What the output buffer holds after the body at a last chunk (elsewhere the window is idle and the value is
    never consulted). -/
def outAt (c : Dev nD) (t : Fin cfg1.N) : Vec F S1024x512 .f32 :=
  if h1 : t.val % 4 = 3 then
    outLast c (grid1.coords t) (ms0 t) (hs0 t) (ms1 t) (hs1 t) (ms2 t) (hs2 t) (ms3 t) (hs3 t) accM (Memref.isWhole_whole _) (notFirst_of_last h1) (last_of h1) (convBlk V c 0 t) (convBlk V c 1 t) (convBlk V c 2 t) (accAt V c (t.val - 1) (Nat.lt_of_le_of_lt (Nat.sub_le _ _) t.isLt))
  else accV.read (Elt F) accV.junk

theorem outAt_last (c : Dev nD) (t : Fin cfg1.N) (h1 : t.val % 4 = 3) :
    outAt V c t = outLast c (grid1.coords t) (ms0 t) (hs0 t) (ms1 t) (hs1 t) (ms2 t) (hs2 t) (ms3 t) (hs3 t) accM (Memref.isWhole_whole _) (notFirst_of_last h1) (last_of h1) (convBlk V c 0 t) (convBlk V c 1 t) (convBlk V c 2 t) (accAt V c (t.val - 1) (Nat.lt_of_le_of_lt (Nat.sub_le _ _) t.isLt)) :=
  dif_pos h1

/-! ## The region invariant: the accumulator carried from point to point -/

/-- The scoped buffers no window of this region stages, the accumulator at X. -/
def scopedWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

theorem PhiA_eq (c : Dev nD) :
    (Pipeline.ΦA spec1 c : sProp 𝕄) = iprop(scopedWith c (iprop(∃ d, owns (c : Thread nD τ) accM fullShare d)) ∗ (∃ r, prngReg c r)) := by
  unfold Pipeline.ΦA scopedWith; rw [scopedRest_split]

/-- Before the first point the class's invariant; after point n the same with the accumulator at accAt n. -/
def PhiS (c : Dev nD) : (n : ℕ) → n ≤ cfg1.N → sProp 𝕄
  | 0, _ => Pipeline.ΦA spec1 c
  | n + 1, hn => iprop(scopedWith c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) accM fullShare (accAt V c n hn)) ∗ (∃ r, prngReg c r)) := rfl
theorem PhiS_pos (c : Dev nD) (n : ℕ) (h : n ≤ cfg1.N) (hz : n ≠ 0) :
    PhiS V c n h = iprop(scopedWith c (owns (c : Thread nD τ) accM fullShare (accAt V c (n - 1) (by omega))) ∗ (∃ r, prngReg c r)) := by
  cases n with
  | zero => exact absurd rfl hz
  | succ n => rfl

/-! ## The pipeline's proof data -/

def convDat (c : Dev nD) : Dat τ (Elt F) Unit ℕ (UR sig nD τ) ℕ cfg1 c where
  A w := V c (Pipeline.arrRef spec1 w)
  after w t := match w with
    | ⟨0, _⟩ => convBlk V c 0 t
    | ⟨1, _⟩ => convBlk V c 1 t
    | ⟨2, _⟩ => convBlk V c 2 t
    | ⟨3, _⟩ => outAt V c t
  Φ t := PhiS V c t.val (Nat.le_of_lt_succ t.isLt)
  q _ := fullShare
  owed _ := 0

theorem convA (c : Dev nD) (w : Fin cfg1.W) : (convDat V c).A w = V c (Pipeline.arrRef spec1 w) := by
  dsimp only [convDat]
theorem PhiS_castSucc (c : Dev nD) (t : Fin cfg1.N) :
    (convDat V c).Φ t.castSucc = PhiS V c t.val (Nat.le_of_lt t.isLt) := by
  dsimp only [convDat]; simp only [Fin.coe_castSucc]
theorem convAfter0 (c : Dev nD) (t : Fin cfg1.N) : (convDat V c).after 0 t = convBlk V c 0 t := by dsimp only [convDat]
theorem convAfter1 (c : Dev nD) (t : Fin cfg1.N) : (convDat V c).after 1 t = convBlk V c 1 t := by dsimp only [convDat]
theorem convAfter2 (c : Dev nD) (t : Fin cfg1.N) : (convDat V c).after 2 t = convBlk V c 2 t := by dsimp only [convDat]
theorem convAfter3 (c : Dev nD) (t : Fin cfg1.N) : (convDat V c).after 3 t = outAt V c t := by dsimp only [convDat]

theorem convBefore0 (c : Dev nD) (t : Fin cfg1.N) (d) : (convDat V c).before 0 t d = convBlk V c 0 t :=
  convBefore0_of V (convDat V c) (convA V c 0) (convAfter0 V c) t d
theorem convBefore1 (c : Dev nD) (t : Fin cfg1.N) (d) : (convDat V c).before 1 t d = convBlk V c 1 t :=
  convBefore1_of V (convDat V c) (convA V c 1) (convAfter1 V c) t d
theorem convBefore2 (c : Dev nD) (t : Fin cfg1.N) (d) : (convDat V c).before 2 t d = convBlk V c 2 t :=
  convBefore2_of V (convDat V c) (convA V c 2) (convAfter2 V c) t d

/-! ## The body obligation -/

def convPre (c : Dev nD) (t : Fin cfg1.N) : sProp 𝕄 :=
  iprop((convDat V c).Φ t.castSucc ∗ (convDat V c).owesAt () t.castSucc
    ∗ (∃ d, owns (c : Thread nD τ) (ms0 t) fullShare ((convDat V c).before 0 t d))
    ∗ (∃ d, owns (c : Thread nD τ) (ms1 t) fullShare ((convDat V c).before 1 t d))
    ∗ (∃ d, owns (c : Thread nD τ) (ms2 t) fullShare ((convDat V c).before 2 t d))
    ∗ (∃ d, owns (c : Thread nD τ) (ms3 t) fullShare ((convDat V c).before 3 t d)))

def convPost (c : Dev nD) (t : Fin cfg1.N) : sProp 𝕄 :=
  iprop((convDat V c).Φ t.succ ∗ (convDat V c).owesAt () t.succ
    ∗ (convDat V c).leavesExact 0 t
    ∗ (convDat V c).leavesExact 1 t
    ∗ (convDat V c).leavesExact 2 t
    ∗ (convDat V c).leavesExact 3 t)

theorem leaves0 (c : Dev nD) (t : Fin cfg1.N) : (convDat V c).leavesExact 0 t = owns (c : Thread nD τ) (ms0 t) fullShare (convBlk V c 0 t) := by
  unfold Dat.leavesExact; rw [inLive0 t, convAfter0]
theorem leaves1 (c : Dev nD) (t : Fin cfg1.N) : (convDat V c).leavesExact 1 t = owns (c : Thread nD τ) (ms1 t) fullShare (convBlk V c 1 t) := by
  unfold Dat.leavesExact; rw [inLive1 t, convAfter1]
theorem leaves2 (c : Dev nD) (t : Fin cfg1.N) : (convDat V c).leavesExact 2 t = owns (c : Thread nD τ) (ms2 t) fullShare (convBlk V c 2 t) := by
  unfold Dat.leavesExact; rw [inLive2 t, convAfter2]

set_option maxHeartbeats 4800000 in
/-- The body at any point: the closed forms say which case the point is in; the invariant hands the body the
    accumulator at what the point before left (at anything at a first chunk) and takes it back at this point's
    contents; an idle output buffer goes back as found. -/
theorem convBody (c : Dev nD) (t : Fin cfg1.N) :
    convPre V c t ⊢ wp frame (wpE (defs₀ (F := F)) Variants.none c none) Set.univ (bodyAt1 t) (fun _ => convPost V c t) := by
  unfold convPre convPost bodyAt1
  simp only [convBefore0, convBefore1, convBefore2]
  rw [show (convDat V c).owesAt () t.succ = (convDat V c).owesAt () t.castSucc from rfl]
  rw [show (convDat V c).Φ t.succ = PhiS V c (t.val + 1) t.isLt from rfl, PhiS_succ]
  rw [leaves0, leaves1, leaves2]
  have hN : t.val < 32 := lt_of_lt_of_eq t.isLt (show cfg1.N = 32 from N_1)
  by_cases h0 : t.val % 4 = 0
  · rw [Dat.leavesExact_idle (convDat V c) 3 t (outIdle t (notLast_of_first h0)) (outNoFlush t (notLast_of_first h0))]
    rw [accAt_first V c t h0]
    unfold accFirst; (try dsimp only)
    by_cases hz : t.val = 0
    · rw [PhiS_castSucc V c t, PhiS_zero V c _ _ hz, PhiA_eq]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runFirst c (grid1.coords t) _ _ _ _ _ _ _ _ _ _ (first_of h0) (notLast_of_first h0) (convBlk V c 0 t) (convBlk V c 1 t) (convBlk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runFirst c (grid1.coords t) _ _ _ _ _ _ _ _ _ _ (first_of h0) (notLast_of_first h0) (convBlk V c 0 t) (convBlk V c 1 t) (convBlk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (convDat V c).leavesExact 3 t = owns (c : Thread nD τ) (ms3 t) fullShare ((convDat V c).after 3 t) from by
        unfold Dat.leavesExact; rw [outLive t (last_of h1)], convAfter3]
      rw [accAt_last V c t h0 h1, outAt_last V c t h1]
      unfold accLast outLast; (try dsimp only)
      rw [PhiS_castSucc V c t, PhiS_pos V c _ _ hz]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runLast c (grid1.coords t) _ _ _ _ _ _ _ _ _ _ (notFirst_of h0) (last_of h1) (convBlk V c 0 t) (convBlk V c 1 t) (convBlk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · rw [Dat.leavesExact_idle (convDat V c) 3 t (outIdle t (notLast_of h1)) (outNoFlush t (notLast_of h1))]
      rw [accAt_mid V c t h0 h1]
      unfold accMid; (try dsimp only)
      rw [PhiS_castSucc V c t, PhiS_pos V c _ _ hz]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runMid c (grid1.coords t) _ _ _ _ _ _ _ _ _ _ (notFirst_of h0) (notLast_of h1) (convBlk V c 0 t) (convBlk V c 1 t) (convBlk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem convObligation (c : Dev nD) : BodyObligation (convDat (F := F) V c) (defs₀ (F := F)) Variants.none () Set.univ := fun t => by
  rw [bigSep_W1, bigSep_W1]
  exact convBody V c t

/-- What the launch hands the region is the invariant before the first point. -/
theorem convIn (c : Dev nD) : Pipeline.ΦA spec1 c ⊢ (convDat V c).Φ 0 := by
  rw [show (convDat V c).Φ 0 = PhiS V c 0 (Nat.zero_le _) from rfl, PhiS_zero V c 0 _ rfl]
  try exact Idealize.SL.BI.Entails.refl _

/-- After the last point the invariant gives the class's back: the accumulator's contents are forgotten. -/
theorem convOut (c : Dev nD) : (convDat V c).Φ (Fin.last cfg1.N) ⊢ Pipeline.ΦA spec1 c := by
  rw [show (convDat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  unfold scopedWith
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end Region

end Cert.Kernel.GC

end
-- ==== Proof.K.Run.lean ====
/-
  The whole run of @main: the projection region, the bias laid out as a row on the host, the aggregation region.
  The buffer contents at each boundary are a fold from the launch memory: a region's arrays at what its
  write-backs leave, every other buffer as the region found it; the host stretch's result.  Each region is a
  segment over the thread state "every unscoped buffer at the boundary's contents, the generator register at some
  state, nothing owed"; the launch composes them.  The run's post: the result array at the aggregation region's
  written-back array, each argument as launched.
-/
import proofs.«152907_j996432413322_2_alg».proof.Proof.Gen.Kernel.Launch
import proofs.«152907_j996432413322_2_alg».proof.Proof.Gen.Kernel.Skeleton
import proofs.«152907_j996432413322_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.K.Proj
import proofs.«152907_j996432413322_2_alg».proof.Proof.K.Conv
set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev atLaunch : Dev nD → Valuation τ sig (Elt F) := fun c b => (s₀ m ρ).mem ((c : Dev nD), b)
abbrev atLaunchV : (c : Dev nD) → (b : Ref sig .tc) → Buf (Elt F) ((c : Thread nD τ).loc b) := fun c b => atLaunch m ρ c b

/-- After the projection region: its arrays at what the pipeline leaves, every other buffer as launched. -/
def afterProj (c : Dev nD) : Valuation τ sig (Elt F) :=
  Pipeline.withArrays spec0 c (atLaunch m ρ c) fun w => (projDat (atLaunchV m ρ) c).arrAt w cfg0.N
theorem afterProj_arr (c : Dev nD) (w : Fin cfg0.W) :
    afterProj m ρ c (Proc.devRef .tc (Pipeline.arrRef spec0 w)) = (projDat (atLaunchV m ρ) c).arrAt w cfg0.N := by
  unfold afterProj; exact Pipeline.withArrays_arr spec0 launch0.win.arr_inj c _ _ w
theorem afterProj_of_ne (c : Dev nD) (b : Ref sig .tc) (hb : ∀ w, Pipeline.arrRef spec0 w ≠ b) :
    afterProj m ρ c (Proc.devRef .tc b) = atLaunch m ρ c (Proc.devRef .tc b) := by
  unfold afterProj; exact Pipeline.withArrays_of_ne spec0 c _ _ b hb
abbrev afterProjV : (c : Dev nD) → (b : Ref sig .tc) → Buf (Elt F) ((c : Thread nD τ).loc b) := fun c b => afterProj m ρ c b
theorem projArrays (c : Dev nD) (w : Fin cfg0.W) : (projDat (atLaunchV m ρ) c).arrAt w cfg0.N = afterProjV m ρ c (Pipeline.arrRef spec0 w) :=
  (afterProj_arr m ρ c w).symm
theorem projRest (c : Dev nD) : ∀ b, b ∉ Finset.univ.image (Pipeline.arrRef spec0) → afterProjV m ρ c b = atLaunchV m ρ c b :=
  fun b hb => afterProj_of_ne m ρ c b fun w e => hb (Finset.mem_image.mpr ⟨w, Finset.mem_univ _, e⟩)

/-- After the host stretch (the bias as a 1×512 row): the aggregation region's entry. -/
abbrev afterHost : Dev nD → Valuation τ sig (Elt F) := fun c => StableHlo.after hostOps1 (afterProj m ρ c)
abbrev afterHostV : (c : Dev nD) → (b : Ref sig .tc) → Buf (Elt F) ((c : Thread nD τ).loc b) := fun c b => afterHost m ρ c b

/-- After the aggregation region. -/
def afterConv (c : Dev nD) : Valuation τ sig (Elt F) :=
  Pipeline.withArrays spec1 c (afterHost m ρ c) fun w => (convDat (afterHostV m ρ) c).arrAt w cfg1.N
theorem afterConv_arr (c : Dev nD) (w : Fin cfg1.W) :
    afterConv m ρ c (Proc.devRef .tc (Pipeline.arrRef spec1 w)) = (convDat (afterHostV m ρ) c).arrAt w cfg1.N := by
  unfold afterConv; exact Pipeline.withArrays_arr spec1 launch1.win.arr_inj c _ _ w
theorem afterConv_of_ne (c : Dev nD) (b : Ref sig .tc) (hb : ∀ w, Pipeline.arrRef spec1 w ≠ b) :
    afterConv m ρ c (Proc.devRef .tc b) = afterHost m ρ c (Proc.devRef .tc b) := by
  unfold afterConv; exact Pipeline.withArrays_of_ne spec1 c _ _ b hb
abbrev afterConvV : (c : Dev nD) → (b : Ref sig .tc) → Buf (Elt F) ((c : Thread nD τ).loc b) := fun c b => afterConv m ρ c b
theorem convArrays (c : Dev nD) (w : Fin cfg1.W) : (convDat (afterHostV m ρ) c).arrAt w cfg1.N = afterConvV m ρ c (Pipeline.arrRef spec1 w) :=
  (afterConv_arr m ρ c w).symm
theorem convRest (c : Dev nD) : ∀ b, b ∉ Finset.univ.image (Pipeline.arrRef spec1) → afterConvV m ρ c b = afterHostV m ρ c b :=
  fun b hb => afterConv_of_ne m ρ c b fun w e => hb (Finset.mem_image.mpr ⟨w, Finset.mem_univ _, e⟩)

/-- The host stretch writes the bias row only. -/
theorem afterHost_of_ne (c : Dev nD) (b : Ref sig .tc) (hb : b ≠ main_v1) :
    afterHost m ρ c (Proc.devRef .tc b) = afterProj m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem afterConv_arg0 (c : Dev nD) : afterConv m ρ c (Proc.devRef .tc main_arg0) = m ((c : Thread nD τ).loc main_arg0) :=
  calc afterConv m ρ c (Proc.devRef .tc main_arg0)
    _ = afterHost m ρ c (Proc.devRef .tc main_arg0) := afterConv_of_ne m ρ c main_arg0 (by decide)
    _ = afterProj m ρ c (Proc.devRef .tc main_arg0) := afterHost_of_ne m ρ c main_arg0 (by decide)
    _ = atLaunch m ρ c (Proc.devRef .tc main_arg0) := (afterProj_arr m ρ c 0).trans (((projDat (atLaunchV m ρ) c).arrAt_in 0 rfl _).trans (projA (atLaunchV m ρ) c 0))
    _ = m ((c : Thread nD τ).loc main_arg0) := rfl

theorem afterConv_arg1 (c : Dev nD) : afterConv m ρ c (Proc.devRef .tc main_arg1) = m ((c : Thread nD τ).loc main_arg1) :=
  calc afterConv m ρ c (Proc.devRef .tc main_arg1)
    _ = afterHost m ρ c (Proc.devRef .tc main_arg1) := (afterConv_arr m ρ c 0).trans (((convDat (afterHostV m ρ) c).arrAt_in 0 rfl _).trans (convA (afterHostV m ρ) c 0))
    _ = afterProj m ρ c (Proc.devRef .tc main_arg1) := afterHost_of_ne m ρ c main_arg1 (by decide)
    _ = atLaunch m ρ c (Proc.devRef .tc main_arg1) := afterProj_of_ne m ρ c main_arg1 (by decide)
    _ = m ((c : Thread nD τ).loc main_arg1) := rfl

theorem afterConv_arg2 (c : Dev nD) : afterConv m ρ c (Proc.devRef .tc main_arg2) = m ((c : Thread nD τ).loc main_arg2) :=
  calc afterConv m ρ c (Proc.devRef .tc main_arg2)
    _ = afterHost m ρ c (Proc.devRef .tc main_arg2) := afterConv_of_ne m ρ c main_arg2 (by decide)
    _ = afterProj m ρ c (Proc.devRef .tc main_arg2) := afterHost_of_ne m ρ c main_arg2 (by decide)
    _ = atLaunch m ρ c (Proc.devRef .tc main_arg2) := (afterProj_arr m ρ c 1).trans (((projDat (atLaunchV m ρ) c).arrAt_in 1 rfl _).trans (projA (atLaunchV m ρ) c 1))
    _ = m ((c : Thread nD τ).loc main_arg2) := rfl

theorem afterConv_arg3 (c : Dev nD) : afterConv m ρ c (Proc.devRef .tc main_arg3) = m ((c : Thread nD τ).loc main_arg3) :=
  calc afterConv m ρ c (Proc.devRef .tc main_arg3)
    _ = afterHost m ρ c (Proc.devRef .tc main_arg3) := afterConv_of_ne m ρ c main_arg3 (by decide)
    _ = afterProj m ρ c (Proc.devRef .tc main_arg3) := afterHost_of_ne m ρ c main_arg3 (by decide)
    _ = atLaunch m ρ c (Proc.devRef .tc main_arg3) := afterProj_of_ne m ρ c main_arg3 (by decide)
    _ = m ((c : Thread nD τ).loc main_arg3) := rfl

/-! ## The proof data family and the thread state -/

abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => projDat (atLaunchV m ρ) c
  | ⟨1, _⟩ => fun c => convDat (afterHostV m ρ) c
abbrev 𝒱₀ : Variants := Variants.none
abbrev noPairs : GSem nD τ sig → Finset Unit := fun _ => ∅
abbrev noLevel : GSem nD τ sig → Unit → ℕ := fun _ _ => 0
/-- What rides beside the buffers: the generator register at some state, nothing owed. -/
abbrev beside (c : Dev nD) : sProp 𝕄 := iprop((∃ r, prngReg c r) ∗ ∃ W, owes (c : Thread nD τ) (0 : CellTallies nD τ sig Unit) W)

theorem hostFresh : (hostOps1 : List (HloOp τ sig (Elt F))).Forall fun op => op.fresh = ∅ := by
  simp only [List.Forall]; repeat' constructor

/-- The host stretch as a segment. -/
abbrev hostSeg : Pipeline.HostSeg (Name := ℕ) (U := UR sig nD τ) (pcfgs (F := F)) defs₀ 𝒱₀ noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostFresh) op h) (afterProj m ρ) beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev atEnd (c : Dev nD) : sProp 𝕄 := iprop(StableHlo.held (c : Thread nD τ) (Pipeline.ucRefs τ sig) (afterConv m ρ c) ∗ ∃ r, prngReg c r)

/-! ## The regions as segments -/

set_option backward.isDefEq.respectTransparency.types false in
/-- The projection region: entered from the launch contents, left at afterProj. -/
def projSeg : Pipeline.RegionSeg (pcfgs (F := F)) noTables (pdats m ρ) () defs₀ 𝒱₀ noPairs noLevel 0 where
  win := launch0.win.to₀
  block_pos := launch0.block_pos
  stage_whole := launch0.stage_whole
  K := PEmpty
  osem k := k.elim
  ho := Pipeline.OwnSemFacts.none _
  hbody c := (projObligation (atLaunchV m ρ) c).loose
  hwaits := Pipeline.hwaits_of_owed_zero _ _ _ _ noPairs noLevel 0 fun _ _ => rfl
  pre c := iprop(StableHlo.held (c : Thread nD τ) (Pipeline.ucRefs τ sig) (atLaunch m ρ c) ∗ beside c)
  post c := iprop(StableHlo.held (c : Thread nD τ) (Pipeline.ucRefs τ sig) (afterProj m ρ c) ∗ beside c)
  X c := iprop(∃ r, prngReg c r)
  Y c := iprop(∃ r, prngReg c r)
  Z c := Pipeline.unscopedRest (Ix := Unit) (Name := ℕ) (U := UR sig nD τ) (Lvl := ℕ) spec0 c (atLaunchV m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (atLaunchV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (atLaunchV m ρ c) (afterProjV m ρ c) ((pdats m ρ 0 c).arrAt · cfg0.N) (projArrays m ρ c) (projRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from afterHost, left at afterConv; the generator register and the scoped rest
    go into the region's invariant (which carries the accumulator between points) and come back out. -/
def convSeg : Pipeline.RegionSeg (pcfgs (F := F)) noTables (pdats m ρ) () defs₀ 𝒱₀ noPairs noLevel 1 where
  win := launch1.win.to₀
  block_pos := launch1.block_pos
  stage_whole := launch1.stage_whole
  K := PEmpty
  osem k := k.elim
  ho := Pipeline.OwnSemFacts.none _
  hbody c := (convObligation (afterHostV m ρ) c).loose
  hwaits := Pipeline.hwaits_of_owed_zero _ _ _ _ noPairs noLevel 1 fun _ _ => rfl
  pre c := iprop(StableHlo.held (c : Thread nD τ) (Pipeline.ucRefs τ sig) (afterHost m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (afterHostV m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (afterHostV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (convOut (afterHostV m ρ) c).trans h
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (afterHostV m ρ c) (afterConvV m ρ c) ((pdats m ρ 1 c).arrAt · cfg1.N) (convArrays m ρ c) (convRest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) noTables (pdats m ρ) () defs₀ 𝒱₀ noPairs noLevel) :=
  [ .region (projSeg m ρ), .host (hostSeg m ρ), .region (convSeg m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = afterConv m ρ c b) :=
  Pipeline.θ_run_regions_kit (pcfgs (F := F)) noTables (pdats m ρ) () cellOf_inj emb₁ defs₀ 𝒱₀ noPairs noLevel m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ beside c)) (Tₙ := atEnd m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterConv m ρ c b)
    (hfin := fun c s' => by
      iintro ⟨⟨Hh, -⟩, HSI⟩
      unfold StableHlo.held
      imodintro
      iapply (pointsTo_read_all (Pipeline.ucRefs τ sig) (fun b => (((c : Thread nD τ)).1, b)) (afterConv m ρ c) s')
      isplitl [Hh] <;> iassumption)
    (hQ := fun s h c => h c)

/-- The run, read at the result and the arguments: the result array at what the aggregation region's write-backs
    leave, each argument as launched. -/
theorem run_read : θ_run defs (onTc (τ := τ) (main (F := F))) ⟨m, fun _ => 0, ρ⟩ (fun r => ∀ c : Dev nD,
      r.2.mem ((c.tc : Thread nD τ).loc main_v2) = (convDat (afterHostV m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (afterConv_arr m ρ c 3),
     (h c _ (mem_uc main_arg0 (by decide))).trans (afterConv_arg0 m ρ c),
     (h c _ (mem_uc main_arg1 (by decide))).trans (afterConv_arg1 m ρ c),
     (h c _ (mem_uc main_arg2 (by decide))).trans (afterConv_arg2 m ρ c),
     (h c _ (mem_uc main_arg3 (by decide))).trans (afterConv_arg3 m ρ c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_read m ρ)

end Cert.Kernel.GC

end
-- ==== Proof.KI.Proj.lean ====
/-
  The projection region (the first kernel launch): support = inp · weight, one block of 512 rows of inp per grid
  point against the whole weight, the product rounded to bf16 on its way out.  Stated at a PARAMETER V, the
  TensorCore's buffer contents when the region is entered.

  What the body leaves in the output window's buffer is one covering store of the product of the two loaded
  blocks (projOut); each input buffer holds its block at every point whether or not the pipeline fetched it
  there (the weight is fetched once and stays).  From these: the pipeline's proof data and its body obligation.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of inp the point works on sit in its buffer at every point. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The weight sits in its buffer at every point: fetched at the first, its block index never moves. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The whole 512×512 buffer as a rectangle. -/
abbrev rP : Rect S512x512 := Rect.unit (s := S512x512) ![0, 0] S512x512.size inb_S512x512_S512x512_0_0

/-- What the body leaves in the output buffer: its one store, of the product of the two loaded blocks. -/
def projOut (x0 x1 : Vec F S512x512 .f32) : Vec F S512x512 .bf16 :=
  View.canon [⟨rP, k0_pay1 (View.ld x0 rP) (View.ld x1 rP)⟩]

theorem projCover (p0 : Vec F S512x512 .bf16) (y : S512x512.Idx) :
    ∃ pc ∈ ([⟨rP, p0⟩] : List (View.Piece (Elt F) S512x512 .bf16)), y ∈ pc.1.set :=
  View.cover_of_tiled [⟨rP, p0⟩] S512x512.size (by rfl) y

set_option maxHeartbeats 1000000 in
/-- The body on whole buffers, the inputs at x0, x1 and the output at anything, runs and leaves the inputs as they
    were and the output at projOut x0 x1. -/
theorem projKernel (c : Dev nD) (E : Set ℕ) (i : grid0.Coords) (arg1 : Memref sig .tc .vmem S512x512 .f32) (harg1 : arg1.IsWhole)
    (arg2 : Memref sig .tc .vmem S512x512 .f32) (harg2 : arg2.IsWhole) (arg3 : Memref sig .tc .vmem S512x512 .bf16) (harg3 : arg3.IsWhole)
    (x0 x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The pipeline's proof data: the arrays as the region finds them; after the body each input buffer at its block,
    the output buffer at the product of the point's blocks; the invariant the scoped rest and the generator
    register, untouched; nothing owed. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projA (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projOut (projBlk V c 0 t) (projBlk V c 1 t) := by dsimp only [projDat]

theorem projBefore0 (c : Dev nD) (t : Fin cfg0.N) (d) : (projDat V c).before 0 t d = projBlk V c 0 t :=
  projBefore0_of V (projDat V c) (projA V c 0) (projAfter0 V c) t d
theorem projBefore1 (c : Dev nD) (t : Fin cfg0.N) (d) : (projDat V c).before 1 t d = projBlk V c 1 t :=
  projBefore1_of V (projDat V c) (projA V c 1) (projAfter1 V c) t d

def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2]
  iintro ⟨HΦ, Ho, ⟨%d0, H0⟩, ⟨%d1, H1⟩, ⟨%d2, H2⟩⟩
  iapply (projKernel c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem projObligation (c : Dev nD) : BodyObligation (projDat (F := F) V c) (defs₀ (F := F)) Variants.none () Set.univ := fun t => by
  rw [bigSep_W0, bigSep_W0]
  exact projBody V c t

end Region

end Cert.KernelIdeal.GC

end
-- ==== Proof.KI.ConvShared.lean ====
/-
  The aggregation region (the second kernel launch), what its case runs share.  The grid is 8 row blocks of adj
  by 4 column chunks; the body clears a 1024×512 accumulator at chunk 0, adds adj-block · support-rows into it at
  every chunk, and at chunk 3 stores accumulator + bias into the output block.  The two branch conditions as
  propositions over the grid coordinates, decided over the grid in closed form; where the output window is idle;
  the accumulator as a memref; the class invariant with the accumulator split out.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator: the chunk coordinate is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The body stores the output block: the chunk coordinate is 3. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The output window is idle, and not written back, exactly off the last chunk. -/
theorem outIdle : ∀ t : Fin cfg1.N, ¬isLast (grid1.coords t) → cfg1.idle 3 (grid1.coords t) = true := by decide +kernel
theorem outNoFlush : ∀ t : Fin cfg1.N, ¬isLast (grid1.coords t) → (cfg1.win 3).flush t = false := by decide +kernel
theorem outLive : ∀ t : Fin cfg1.N, isLast (grid1.coords t) → cfg1.idle 3 (grid1.coords t) = false := by decide +kernel
theorem inLive0 : ∀ t : Fin cfg1.N, cfg1.idle 0 (grid1.coords t) = false := by decide +kernel
theorem inLive1 : ∀ t : Fin cfg1.N, cfg1.idle 1 (grid1.coords t) = false := by decide +kernel
theorem inLive2 : ∀ t : Fin cfg1.N, cfg1.idle 2 (grid1.coords t) = false := by decide +kernel

/-- The accumulator: a whole scoped buffer of the kernel's own. -/
abbrev accM : Memref sig .tc .vmem S1024x512 .f32 := Memref.whole cc1_scratch0
/-- A view through which the accumulator's and the output buffer's contents are stated (the choice does not matter). -/
abbrev accV : View sig .tc .vmem S1024x512 .f32 := accM.view

/-- The other region's staging buffers, which this region never touches, each at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The scoped buffers no window of this region stages: the other region's staging buffers and the accumulator. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) := by
  rw [scopedRest1_eq]; simp only [accM, owns_whole]; rfl

end Cert.KernelIdeal.GC

end
-- ==== Proof.KI.ConvRunFirst.lean ====
/-
  The aggregation body at the first chunk of a row block: it clears the accumulator, reads the zeros back, adds
  this chunk's product and stores the sum; the output buffer is left alone.  The run finds the accumulator's
  pieces.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.KI.ConvShared
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces after the body at a first chunk (the accumulator entered at anything), with the
    body's run on whole buffers: inputs and the output buffer handed back as found. -/
noncomputable def runFirst (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i)
    (x0 : Vec F S1024x2048 .f32) (x1 : Vec F S8192x512 .bf16) (x2 : Vec F S1x512 .f32) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg2 harg2 arg3 harg3 arg4 harg4 arg5 harg5 arg6 harg6) K } := by
  refine ⟨[], ?_, fun xi3 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.GC

end
-- ==== Proof.KI.ConvRunMid.lean ====
/-
  The aggregation body at a middle chunk: it adds this chunk's product to the accumulator the chunk before left;
  the output buffer is left alone.  The run finds the accumulator's pieces.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.KI.ConvShared
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces after the body at a middle chunk (the accumulator entered at xs), with the body's run. -/
noncomputable def runMid (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i)
    (x0 : Vec F S1024x2048 .f32) (x1 : Vec F S8192x512 .bf16) (x2 : Vec F S1x512 .f32) (xs : Vec F S1024x512 .f32) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg2 harg2 arg3 harg3 arg4 harg4 arg5 harg5 arg6 harg6) K } := by
  refine ⟨[], ?_, fun xi3 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.GC

end
-- ==== Proof.KI.ConvRunLast.lean ====
/-
  The aggregation body at the last chunk: it adds this chunk's product to the accumulator, reads the total back,
  and stores total + bias (the bias row laid over the 1024 rows) into the output buffer.  The run finds the
  accumulator's and the output buffer's pieces.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.KI.ConvShared
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The output buffer's and the accumulator's pieces after the body at a last chunk (the accumulator entered at
    xs, the output buffer at anything), with the body's run. -/
noncomputable def runLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i)
    (x0 : Vec F S1024x2048 .f32) (x1 : Vec F S8192x512 .bf16) (x2 : Vec F S1x512 .f32) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg2 harg2 arg3 harg3 arg4 harg4 arg5 harg5 arg6 harg6) K } := by
  refine ⟨?_, ?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.GC

end
-- ==== Proof.KI.Conv.lean ====
/-
  The aggregation region at a PARAMETER V (the TensorCore's buffer contents when the region is entered): what the
  accumulator holds after each grid point, by recursion on the point (accAt: cleared and refilled at the first
  chunk of a row block, added to at the later chunks), what the output buffer holds after a last chunk (outAt),
  the region invariant that carries the accumulator from point to point, the pipeline's proof data and its body
  obligation, case by case.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.KI.ConvRunFirst
import proofs.«152907_j996432413322_2_alg».proof.Proof.KI.ConvRunMid
import proofs.«152907_j996432413322_2_alg».proof.Proof.KI.ConvRunLast
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The chunk of a point, from the closed forms -/

theorem first_of {t : Fin cfg1.N} (h : t.val % 4 = 0) : isFirst (grid1.coords t) := (isFirst_iff t).mpr h
theorem notFirst_of {t : Fin cfg1.N} (h : ¬t.val % 4 = 0) : ¬isFirst (grid1.coords t) := fun hf => h ((isFirst_iff t).mp hf)
theorem last_of {t : Fin cfg1.N} (h : t.val % 4 = 3) : isLast (grid1.coords t) := (isLast_iff t).mpr h
theorem notLast_of {t : Fin cfg1.N} (h : ¬t.val % 4 = 3) : ¬isLast (grid1.coords t) := fun hl => h ((isLast_iff t).mp hl)
theorem notLast_of_first {t : Fin cfg1.N} (h : t.val % 4 = 0) : ¬isLast (grid1.coords t) :=
  notLast_of (by omega)
theorem notFirst_of_last {t : Fin cfg1.N} (h : t.val % 4 = 3) : ¬isFirst (grid1.coords t) :=
  notFirst_of (by omega)

/-! ## The buffers at a point -/

abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .f32 := win1_3.stage (cfg1.slots t 3)
abbrev hs3 (t : Fin cfg1.N) : (ms3 t).IsWhole := hstage1_3 ((cfg1.slots t 3).cast nbuf1_3)

/-! ## What each case leaves: the found pieces cover their buffers, and are read back as contents -/

theorem accCoverFirst (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i) (x0 : Vec F S1024x2048 .f32) (x1 : Vec F S8192x512 .bf16) (x2 : Vec F S1x512 .f32) (y : S1024x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x512.size (by sl_kernel_rfl) y

/-- The accumulator after a first chunk. -/
def accFirst (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i) (x0 : Vec F S1024x2048 .f32) (x1 : Vec F S8192x512 .bf16) (x2 : Vec F S1x512 .f32) : Vec F S1024x512 .f32 :=
  accV.read (Elt F) (accV.writes (Elt F) accV.junk (runFirst c i arg2 harg2 arg3 harg3 arg4 harg4 arg5 harg5 arg6 harg6 hc0 hc1 x0 x1 x2).2.1)

theorem accCoverMid (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i) (x0 : Vec F S1024x2048 .f32) (x1 : Vec F S8192x512 .bf16) (x2 : Vec F S1x512 .f32) (xs : Vec F S1024x512 .f32) (y : S1024x512.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S1024x512.size (by sl_kernel_rfl) y

/-- The accumulator after a middle chunk, entered at xs. -/
def accMid (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i) (x0 : Vec F S1024x2048 .f32) (x1 : Vec F S8192x512 .bf16) (x2 : Vec F S1x512 .f32) (xs : Vec F S1024x512 .f32) : Vec F S1024x512 .f32 :=
  accV.read (Elt F) (accV.writes (Elt F) accV.junk (runMid c i arg2 harg2 arg3 harg3 arg4 harg4 arg5 harg5 arg6 harg6 hc0 hc1 x0 x1 x2 xs).2.1)

theorem accCoverLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x512.size (by sl_kernel_rfl) y

/-- The accumulator after a last chunk, entered at xs. -/
def accLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) : Vec F S1024x512 .f32 :=
  accV.read (Elt F) (accV.writes (Elt F) accV.junk (runLast c i arg2 harg2 arg3 harg3 arg4 harg4 arg5 harg5 arg6 harg6 hc0 hc1 x0 x1 x2 xs).2.1)

theorem outCoverLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) (y : S1024x512.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x512.size (by sl_kernel_rfl) y

/-- The output buffer after a last chunk, the accumulator entered at xs. -/
def outLast (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) : Vec F S1024x512 .f32 :=
  accV.read (Elt F) (accV.writes (Elt F) accV.junk (runLast c i arg2 harg2 arg3 harg3 arg4 harg4 arg5 harg5 arg6 harg6 hc0 hc1 x0 x1 x2 xs).1)

section Region
variable (V : (c : Dev nD) → (b : Ref sig .tc) → Buf (Elt F) ((c : Thread nD τ).loc b))

/-- Window w's block at point t, read off its array as the region finds it. -/
def convBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input buffer holds its window's block at every point, fetched there or not. -/
theorem convBefore0_of {c : Dev nD} (dat : Dat τ (Elt F) Unit ℕ (UR sig nD τ) ℕ cfg1 c) (hA : dat.A 0 = V c (Pipeline.arrRef spec1 0))
    (hafter : ∀ t, dat.after 0 t = convBlk V c 0 t) (t : Fin cfg1.N) (d) : dat.before 0 t d = convBlk V c 0 t :=
  (dat.before_in_eq_fetched 0 rfl (fun _ => rfl) (fun _ _ _ => rfl) (fun t => by rw [hafter]; unfold Dat.blockOf convBlk; rw [hA]; try rfl) t d).trans
    (by unfold Dat.fetched Dat.blockOf convBlk; rw [hA]; try rfl)
theorem convBefore1_of {c : Dev nD} (dat : Dat τ (Elt F) Unit ℕ (UR sig nD τ) ℕ cfg1 c) (hA : dat.A 1 = V c (Pipeline.arrRef spec1 1))
    (hafter : ∀ t, dat.after 1 t = convBlk V c 1 t) (t : Fin cfg1.N) (d) : dat.before 1 t d = convBlk V c 1 t :=
  (dat.before_in_eq_fetched 1 rfl (fun _ => rfl) (fun _ _ _ => rfl) (fun t => by rw [hafter]; unfold Dat.blockOf convBlk; rw [hA]; try rfl) t d).trans
    (by unfold Dat.fetched Dat.blockOf convBlk; rw [hA]; try rfl)
theorem convBefore2_of {c : Dev nD} (dat : Dat τ (Elt F) Unit ℕ (UR sig nD τ) ℕ cfg1 c) (hA : dat.A 2 = V c (Pipeline.arrRef spec1 2))
    (hafter : ∀ t, dat.after 2 t = convBlk V c 2 t) (t : Fin cfg1.N) (d) : dat.before 2 t d = convBlk V c 2 t :=
  (dat.before_in_eq_fetched 2 rfl (fun _ => rfl) (fun _ _ _ => rfl) (fun t => by rw [hafter]; unfold Dat.blockOf convBlk; rw [hA]; try rfl) t d).trans
    (by unfold Dat.fetched Dat.blockOf convBlk; rw [hA]; try rfl)

/-! ## The accumulation -/

/-- What the accumulator holds after the body at position n: at the first chunk of a row block the case's
    contents from scratch, at the later chunks the case's contents over what position n − 1 left. -/
def accAt (c : Dev nD) : (n : ℕ) → n < cfg1.N → Vec F S1024x512 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) (first_of (Nat.zero_mod _)) (notLast_of_first (Nat.zero_mod _)) (convBlk V c 0 ⟨0, hn⟩) (convBlk V c 1 ⟨0, hn⟩) (convBlk V c 2 ⟨0, hn⟩)
  | n + 1, hn =>
    if h0 : (n + 1) % 4 = 0 then
      accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (first_of h0) (notLast_of_first h0) (convBlk V c 0 ⟨n + 1, hn⟩) (convBlk V c 1 ⟨n + 1, hn⟩) (convBlk V c 2 ⟨n + 1, hn⟩)
    else
      if h1 : (n + 1) % 4 = 3 then
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (notFirst_of h0) (last_of h1) (convBlk V c 0 ⟨n + 1, hn⟩) (convBlk V c 1 ⟨n + 1, hn⟩) (convBlk V c 2 ⟨n + 1, hn⟩) (accAt c n (Nat.lt_of_succ_lt hn))
      else
        accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (notFirst_of h0) (notLast_of h1) (convBlk V c 0 ⟨n + 1, hn⟩) (convBlk V c 1 ⟨n + 1, hn⟩) (convBlk V c 2 ⟨n + 1, hn⟩) (accAt c n (Nat.lt_of_succ_lt hn))

theorem accAt_first (c : Dev nD) (t : Fin cfg1.N) (h0 : t.val % 4 = 0) :
    accAt V c t.val t.isLt = accFirst c (grid1.coords t) (ms0 t) (hs0 t) (ms1 t) (hs1 t) (ms2 t) (hs2 t) (ms3 t) (hs3 t) accM (Memref.isWhole_whole _) (first_of h0) (notLast_of_first h0) (convBlk V c 0 t) (convBlk V c 1 t) (convBlk V c 2 t) := by
  obtain ⟨n, hn⟩ := t
  cases n with
  | zero => rfl
  | succ n => exact dif_pos h0

theorem accAt_mid (c : Dev nD) (t : Fin cfg1.N) (h0 : ¬t.val % 4 = 0) (h1 : ¬t.val % 4 = 3) :
    accAt V c t.val t.isLt = accMid c (grid1.coords t) (ms0 t) (hs0 t) (ms1 t) (hs1 t) (ms2 t) (hs2 t) (ms3 t) (hs3 t) accM (Memref.isWhole_whole _) (notFirst_of h0) (notLast_of h1) (convBlk V c 0 t) (convBlk V c 1 t) (convBlk V c 2 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_last (c : Dev nD) (t : Fin cfg1.N) (h0 : ¬t.val % 4 = 0) (h1 : t.val % 4 = 3) :
    accAt V c t.val t.isLt = accLast c (grid1.coords t) (ms0 t) (hs0 t) (ms1 t) (hs1 t) (ms2 t) (hs2 t) (ms3 t) (hs3 t) accM (Memref.isWhole_whole _) (notFirst_of h0) (last_of h1) (convBlk V c 0 t) (convBlk V c 1 t) (convBlk V c 2 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- What the output buffer holds after the body at a last chunk (elsewhere the window is idle and the value is
    never consulted). -/
def outAt (c : Dev nD) (t : Fin cfg1.N) : Vec F S1024x512 .f32 :=
  if h1 : t.val % 4 = 3 then
    outLast c (grid1.coords t) (ms0 t) (hs0 t) (ms1 t) (hs1 t) (ms2 t) (hs2 t) (ms3 t) (hs3 t) accM (Memref.isWhole_whole _) (notFirst_of_last h1) (last_of h1) (convBlk V c 0 t) (convBlk V c 1 t) (convBlk V c 2 t) (accAt V c (t.val - 1) (Nat.lt_of_le_of_lt (Nat.sub_le _ _) t.isLt))
  else accV.read (Elt F) accV.junk

theorem outAt_last (c : Dev nD) (t : Fin cfg1.N) (h1 : t.val % 4 = 3) :
    outAt V c t = outLast c (grid1.coords t) (ms0 t) (hs0 t) (ms1 t) (hs1 t) (ms2 t) (hs2 t) (ms3 t) (hs3 t) accM (Memref.isWhole_whole _) (notFirst_of_last h1) (last_of h1) (convBlk V c 0 t) (convBlk V c 1 t) (convBlk V c 2 t) (accAt V c (t.val - 1) (Nat.lt_of_le_of_lt (Nat.sub_le _ _) t.isLt)) :=
  dif_pos h1

/-! ## The region invariant: the accumulator carried from point to point -/

/-- The scoped buffers no window of this region stages, the accumulator at X. -/
def scopedWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

theorem PhiA_eq (c : Dev nD) :
    (Pipeline.ΦA spec1 c : sProp 𝕄) = iprop(scopedWith c (iprop(∃ d, owns (c : Thread nD τ) accM fullShare d)) ∗ (∃ r, prngReg c r)) := by
  unfold Pipeline.ΦA scopedWith; rw [scopedRest_split]

/-- Before the first point the class's invariant; after point n the same with the accumulator at accAt n. -/
def PhiS (c : Dev nD) : (n : ℕ) → n ≤ cfg1.N → sProp 𝕄
  | 0, _ => Pipeline.ΦA spec1 c
  | n + 1, hn => iprop(scopedWith c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) accM fullShare (accAt V c n hn)) ∗ (∃ r, prngReg c r)) := rfl
theorem PhiS_pos (c : Dev nD) (n : ℕ) (h : n ≤ cfg1.N) (hz : n ≠ 0) :
    PhiS V c n h = iprop(scopedWith c (owns (c : Thread nD τ) accM fullShare (accAt V c (n - 1) (by omega))) ∗ (∃ r, prngReg c r)) := by
  cases n with
  | zero => exact absurd rfl hz
  | succ n => rfl

/-! ## The pipeline's proof data -/

def convDat (c : Dev nD) : Dat τ (Elt F) Unit ℕ (UR sig nD τ) ℕ cfg1 c where
  A w := V c (Pipeline.arrRef spec1 w)
  after w t := match w with
    | ⟨0, _⟩ => convBlk V c 0 t
    | ⟨1, _⟩ => convBlk V c 1 t
    | ⟨2, _⟩ => convBlk V c 2 t
    | ⟨3, _⟩ => outAt V c t
  Φ t := PhiS V c t.val (Nat.le_of_lt_succ t.isLt)
  q _ := fullShare
  owed _ := 0

theorem convA (c : Dev nD) (w : Fin cfg1.W) : (convDat V c).A w = V c (Pipeline.arrRef spec1 w) := by
  dsimp only [convDat]
theorem PhiS_castSucc (c : Dev nD) (t : Fin cfg1.N) :
    (convDat V c).Φ t.castSucc = PhiS V c t.val (Nat.le_of_lt t.isLt) := by
  dsimp only [convDat]; simp only [Fin.coe_castSucc]
theorem convAfter0 (c : Dev nD) (t : Fin cfg1.N) : (convDat V c).after 0 t = convBlk V c 0 t := by dsimp only [convDat]
theorem convAfter1 (c : Dev nD) (t : Fin cfg1.N) : (convDat V c).after 1 t = convBlk V c 1 t := by dsimp only [convDat]
theorem convAfter2 (c : Dev nD) (t : Fin cfg1.N) : (convDat V c).after 2 t = convBlk V c 2 t := by dsimp only [convDat]
theorem convAfter3 (c : Dev nD) (t : Fin cfg1.N) : (convDat V c).after 3 t = outAt V c t := by dsimp only [convDat]

theorem convBefore0 (c : Dev nD) (t : Fin cfg1.N) (d) : (convDat V c).before 0 t d = convBlk V c 0 t :=
  convBefore0_of V (convDat V c) (convA V c 0) (convAfter0 V c) t d
theorem convBefore1 (c : Dev nD) (t : Fin cfg1.N) (d) : (convDat V c).before 1 t d = convBlk V c 1 t :=
  convBefore1_of V (convDat V c) (convA V c 1) (convAfter1 V c) t d
theorem convBefore2 (c : Dev nD) (t : Fin cfg1.N) (d) : (convDat V c).before 2 t d = convBlk V c 2 t :=
  convBefore2_of V (convDat V c) (convA V c 2) (convAfter2 V c) t d

/-! ## The body obligation -/

def convPre (c : Dev nD) (t : Fin cfg1.N) : sProp 𝕄 :=
  iprop((convDat V c).Φ t.castSucc ∗ (convDat V c).owesAt () t.castSucc
    ∗ (∃ d, owns (c : Thread nD τ) (ms0 t) fullShare ((convDat V c).before 0 t d))
    ∗ (∃ d, owns (c : Thread nD τ) (ms1 t) fullShare ((convDat V c).before 1 t d))
    ∗ (∃ d, owns (c : Thread nD τ) (ms2 t) fullShare ((convDat V c).before 2 t d))
    ∗ (∃ d, owns (c : Thread nD τ) (ms3 t) fullShare ((convDat V c).before 3 t d)))

def convPost (c : Dev nD) (t : Fin cfg1.N) : sProp 𝕄 :=
  iprop((convDat V c).Φ t.succ ∗ (convDat V c).owesAt () t.succ
    ∗ (convDat V c).leavesExact 0 t
    ∗ (convDat V c).leavesExact 1 t
    ∗ (convDat V c).leavesExact 2 t
    ∗ (convDat V c).leavesExact 3 t)

theorem leaves0 (c : Dev nD) (t : Fin cfg1.N) : (convDat V c).leavesExact 0 t = owns (c : Thread nD τ) (ms0 t) fullShare (convBlk V c 0 t) := by
  unfold Dat.leavesExact; rw [inLive0 t, convAfter0]
theorem leaves1 (c : Dev nD) (t : Fin cfg1.N) : (convDat V c).leavesExact 1 t = owns (c : Thread nD τ) (ms1 t) fullShare (convBlk V c 1 t) := by
  unfold Dat.leavesExact; rw [inLive1 t, convAfter1]
theorem leaves2 (c : Dev nD) (t : Fin cfg1.N) : (convDat V c).leavesExact 2 t = owns (c : Thread nD τ) (ms2 t) fullShare (convBlk V c 2 t) := by
  unfold Dat.leavesExact; rw [inLive2 t, convAfter2]

set_option maxHeartbeats 4800000 in
/-- The body at any point: the closed forms say which case the point is in; the invariant hands the body the
    accumulator at what the point before left (at anything at a first chunk) and takes it back at this point's
    contents; an idle output buffer goes back as found. -/
theorem convBody (c : Dev nD) (t : Fin cfg1.N) :
    convPre V c t ⊢ wp frame (wpE (defs₀ (F := F)) Variants.none c none) Set.univ (bodyAt1 t) (fun _ => convPost V c t) := by
  unfold convPre convPost bodyAt1
  simp only [convBefore0, convBefore1, convBefore2]
  rw [show (convDat V c).owesAt () t.succ = (convDat V c).owesAt () t.castSucc from rfl]
  rw [show (convDat V c).Φ t.succ = PhiS V c (t.val + 1) t.isLt from rfl, PhiS_succ]
  rw [leaves0, leaves1, leaves2]
  have hN : t.val < 32 := lt_of_lt_of_eq t.isLt (show cfg1.N = 32 from N_1)
  by_cases h0 : t.val % 4 = 0
  · rw [Dat.leavesExact_idle (convDat V c) 3 t (outIdle t (notLast_of_first h0)) (outNoFlush t (notLast_of_first h0))]
    rw [accAt_first V c t h0]
    unfold accFirst; (try dsimp only)
    by_cases hz : t.val = 0
    · rw [PhiS_castSucc V c t, PhiS_zero V c _ _ hz, PhiA_eq]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runFirst c (grid1.coords t) _ _ _ _ _ _ _ _ _ _ (first_of h0) (notLast_of_first h0) (convBlk V c 0 t) (convBlk V c 1 t) (convBlk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runFirst c (grid1.coords t) _ _ _ _ _ _ _ _ _ _ (first_of h0) (notLast_of_first h0) (convBlk V c 0 t) (convBlk V c 1 t) (convBlk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (convDat V c).leavesExact 3 t = owns (c : Thread nD τ) (ms3 t) fullShare ((convDat V c).after 3 t) from by
        unfold Dat.leavesExact; rw [outLive t (last_of h1)], convAfter3]
      rw [accAt_last V c t h0 h1, outAt_last V c t h1]
      unfold accLast outLast; (try dsimp only)
      rw [PhiS_castSucc V c t, PhiS_pos V c _ _ hz]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runLast c (grid1.coords t) _ _ _ _ _ _ _ _ _ _ (notFirst_of h0) (last_of h1) (convBlk V c 0 t) (convBlk V c 1 t) (convBlk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · rw [Dat.leavesExact_idle (convDat V c) 3 t (outIdle t (notLast_of h1)) (outNoFlush t (notLast_of h1))]
      rw [accAt_mid V c t h0 h1]
      unfold accMid; (try dsimp only)
      rw [PhiS_castSucc V c t, PhiS_pos V c _ _ hz]; unfold scopedWith
      iintro ⟨⟨⟨Ha, Hb, Hc, Hd, He, HS⟩, Hg⟩, Ho, ⟨%d0, H0⟩, ⟨%d1, H1⟩, ⟨%d2, H2⟩, ⟨%d3, H3⟩⟩
      iapply ((runMid c (grid1.coords t) _ _ _ _ _ _ _ _ _ _ (notFirst_of h0) (notLast_of h1) (convBlk V c 0 t) (convBlk V c 1 t) (convBlk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (accCoverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem convObligation (c : Dev nD) : BodyObligation (convDat (F := F) V c) (defs₀ (F := F)) Variants.none () Set.univ := fun t => by
  rw [bigSep_W1, bigSep_W1]
  exact convBody V c t

/-- What the launch hands the region is the invariant before the first point. -/
theorem convIn (c : Dev nD) : Pipeline.ΦA spec1 c ⊢ (convDat V c).Φ 0 := by
  rw [show (convDat V c).Φ 0 = PhiS V c 0 (Nat.zero_le _) from rfl, PhiS_zero V c 0 _ rfl]
  try exact Idealize.SL.BI.Entails.refl _

/-- After the last point the invariant gives the class's back: the accumulator's contents are forgotten. -/
theorem convOut (c : Dev nD) : (convDat V c).Φ (Fin.last cfg1.N) ⊢ Pipeline.ΦA spec1 c := by
  rw [show (convDat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  unfold scopedWith
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end Region

end Cert.KernelIdeal.GC

end
-- ==== Proof.KI.Run.lean ====
/-
  The whole run of @main: the projection region, the bias laid out as a row on the host, the aggregation region.
  The buffer contents at each boundary are a fold from the launch memory: a region's arrays at what its
  write-backs leave, every other buffer as the region found it; the host stretch's result.  Each region is a
  segment over the thread state "every unscoped buffer at the boundary's contents, the generator register at some
  state, nothing owed"; the launch composes them.  The run's post: the result array at the aggregation region's
  written-back array, each argument as launched.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«152907_j996432413322_2_alg».proof.Proof.KI.Proj
import proofs.«152907_j996432413322_2_alg».proof.Proof.KI.Conv
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev atLaunch : Dev nD → Valuation τ sig (Elt F) := fun c b => (s₀ m ρ).mem ((c : Dev nD), b)
abbrev atLaunchV : (c : Dev nD) → (b : Ref sig .tc) → Buf (Elt F) ((c : Thread nD τ).loc b) := fun c b => atLaunch m ρ c b

/-- After the projection region: its arrays at what the pipeline leaves, every other buffer as launched. -/
def afterProj (c : Dev nD) : Valuation τ sig (Elt F) :=
  Pipeline.withArrays spec0 c (atLaunch m ρ c) fun w => (projDat (atLaunchV m ρ) c).arrAt w cfg0.N
theorem afterProj_arr (c : Dev nD) (w : Fin cfg0.W) :
    afterProj m ρ c (Proc.devRef .tc (Pipeline.arrRef spec0 w)) = (projDat (atLaunchV m ρ) c).arrAt w cfg0.N := by
  unfold afterProj; exact Pipeline.withArrays_arr spec0 launch0.win.arr_inj c _ _ w
theorem afterProj_of_ne (c : Dev nD) (b : Ref sig .tc) (hb : ∀ w, Pipeline.arrRef spec0 w ≠ b) :
    afterProj m ρ c (Proc.devRef .tc b) = atLaunch m ρ c (Proc.devRef .tc b) := by
  unfold afterProj; exact Pipeline.withArrays_of_ne spec0 c _ _ b hb
abbrev afterProjV : (c : Dev nD) → (b : Ref sig .tc) → Buf (Elt F) ((c : Thread nD τ).loc b) := fun c b => afterProj m ρ c b
theorem projArrays (c : Dev nD) (w : Fin cfg0.W) : (projDat (atLaunchV m ρ) c).arrAt w cfg0.N = afterProjV m ρ c (Pipeline.arrRef spec0 w) :=
  (afterProj_arr m ρ c w).symm
theorem projRest (c : Dev nD) : ∀ b, b ∉ Finset.univ.image (Pipeline.arrRef spec0) → afterProjV m ρ c b = atLaunchV m ρ c b :=
  fun b hb => afterProj_of_ne m ρ c b fun w e => hb (Finset.mem_image.mpr ⟨w, Finset.mem_univ _, e⟩)

/-- After the host stretch (the bias as a 1×512 row): the aggregation region's entry. -/
abbrev afterHost : Dev nD → Valuation τ sig (Elt F) := fun c => StableHlo.after hostOps1 (afterProj m ρ c)
abbrev afterHostV : (c : Dev nD) → (b : Ref sig .tc) → Buf (Elt F) ((c : Thread nD τ).loc b) := fun c b => afterHost m ρ c b

/-- After the aggregation region. -/
def afterConv (c : Dev nD) : Valuation τ sig (Elt F) :=
  Pipeline.withArrays spec1 c (afterHost m ρ c) fun w => (convDat (afterHostV m ρ) c).arrAt w cfg1.N
theorem afterConv_arr (c : Dev nD) (w : Fin cfg1.W) :
    afterConv m ρ c (Proc.devRef .tc (Pipeline.arrRef spec1 w)) = (convDat (afterHostV m ρ) c).arrAt w cfg1.N := by
  unfold afterConv; exact Pipeline.withArrays_arr spec1 launch1.win.arr_inj c _ _ w
theorem afterConv_of_ne (c : Dev nD) (b : Ref sig .tc) (hb : ∀ w, Pipeline.arrRef spec1 w ≠ b) :
    afterConv m ρ c (Proc.devRef .tc b) = afterHost m ρ c (Proc.devRef .tc b) := by
  unfold afterConv; exact Pipeline.withArrays_of_ne spec1 c _ _ b hb
abbrev afterConvV : (c : Dev nD) → (b : Ref sig .tc) → Buf (Elt F) ((c : Thread nD τ).loc b) := fun c b => afterConv m ρ c b
theorem convArrays (c : Dev nD) (w : Fin cfg1.W) : (convDat (afterHostV m ρ) c).arrAt w cfg1.N = afterConvV m ρ c (Pipeline.arrRef spec1 w) :=
  (afterConv_arr m ρ c w).symm
theorem convRest (c : Dev nD) : ∀ b, b ∉ Finset.univ.image (Pipeline.arrRef spec1) → afterConvV m ρ c b = afterHostV m ρ c b :=
  fun b hb => afterConv_of_ne m ρ c b fun w e => hb (Finset.mem_image.mpr ⟨w, Finset.mem_univ _, e⟩)

/-- The host stretch writes the bias row only. -/
theorem afterHost_of_ne (c : Dev nD) (b : Ref sig .tc) (hb : b ≠ main_v1) :
    afterHost m ρ c (Proc.devRef .tc b) = afterProj m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem afterConv_arg0 (c : Dev nD) : afterConv m ρ c (Proc.devRef .tc main_arg0) = m ((c : Thread nD τ).loc main_arg0) :=
  calc afterConv m ρ c (Proc.devRef .tc main_arg0)
    _ = afterHost m ρ c (Proc.devRef .tc main_arg0) := afterConv_of_ne m ρ c main_arg0 (by decide)
    _ = afterProj m ρ c (Proc.devRef .tc main_arg0) := afterHost_of_ne m ρ c main_arg0 (by decide)
    _ = atLaunch m ρ c (Proc.devRef .tc main_arg0) := (afterProj_arr m ρ c 0).trans (((projDat (atLaunchV m ρ) c).arrAt_in 0 rfl _).trans (projA (atLaunchV m ρ) c 0))
    _ = m ((c : Thread nD τ).loc main_arg0) := rfl

theorem afterConv_arg1 (c : Dev nD) : afterConv m ρ c (Proc.devRef .tc main_arg1) = m ((c : Thread nD τ).loc main_arg1) :=
  calc afterConv m ρ c (Proc.devRef .tc main_arg1)
    _ = afterHost m ρ c (Proc.devRef .tc main_arg1) := (afterConv_arr m ρ c 0).trans (((convDat (afterHostV m ρ) c).arrAt_in 0 rfl _).trans (convA (afterHostV m ρ) c 0))
    _ = afterProj m ρ c (Proc.devRef .tc main_arg1) := afterHost_of_ne m ρ c main_arg1 (by decide)
    _ = atLaunch m ρ c (Proc.devRef .tc main_arg1) := afterProj_of_ne m ρ c main_arg1 (by decide)
    _ = m ((c : Thread nD τ).loc main_arg1) := rfl

theorem afterConv_arg2 (c : Dev nD) : afterConv m ρ c (Proc.devRef .tc main_arg2) = m ((c : Thread nD τ).loc main_arg2) :=
  calc afterConv m ρ c (Proc.devRef .tc main_arg2)
    _ = afterHost m ρ c (Proc.devRef .tc main_arg2) := afterConv_of_ne m ρ c main_arg2 (by decide)
    _ = afterProj m ρ c (Proc.devRef .tc main_arg2) := afterHost_of_ne m ρ c main_arg2 (by decide)
    _ = atLaunch m ρ c (Proc.devRef .tc main_arg2) := (afterProj_arr m ρ c 1).trans (((projDat (atLaunchV m ρ) c).arrAt_in 1 rfl _).trans (projA (atLaunchV m ρ) c 1))
    _ = m ((c : Thread nD τ).loc main_arg2) := rfl

theorem afterConv_arg3 (c : Dev nD) : afterConv m ρ c (Proc.devRef .tc main_arg3) = m ((c : Thread nD τ).loc main_arg3) :=
  calc afterConv m ρ c (Proc.devRef .tc main_arg3)
    _ = afterHost m ρ c (Proc.devRef .tc main_arg3) := afterConv_of_ne m ρ c main_arg3 (by decide)
    _ = afterProj m ρ c (Proc.devRef .tc main_arg3) := afterHost_of_ne m ρ c main_arg3 (by decide)
    _ = atLaunch m ρ c (Proc.devRef .tc main_arg3) := afterProj_of_ne m ρ c main_arg3 (by decide)
    _ = m ((c : Thread nD τ).loc main_arg3) := rfl

/-! ## The proof data family and the thread state -/

abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => projDat (atLaunchV m ρ) c
  | ⟨1, _⟩ => fun c => convDat (afterHostV m ρ) c
abbrev 𝒱₀ : Variants := Variants.none
abbrev noPairs : GSem nD τ sig → Finset Unit := fun _ => ∅
abbrev noLevel : GSem nD τ sig → Unit → ℕ := fun _ _ => 0
/-- What rides beside the buffers: the generator register at some state, nothing owed. -/
abbrev beside (c : Dev nD) : sProp 𝕄 := iprop((∃ r, prngReg c r) ∗ ∃ W, owes (c : Thread nD τ) (0 : CellTallies nD τ sig Unit) W)

theorem hostFresh : (hostOps1 : List (HloOp τ sig (Elt F))).Forall fun op => op.fresh = ∅ := by
  simp only [List.Forall]; repeat' constructor

/-- The host stretch as a segment. -/
abbrev hostSeg : Pipeline.HostSeg (Name := ℕ) (U := UR sig nD τ) (pcfgs (F := F)) defs₀ 𝒱₀ noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostFresh) op h) (afterProj m ρ) beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev atEnd (c : Dev nD) : sProp 𝕄 := iprop(StableHlo.held (c : Thread nD τ) (Pipeline.ucRefs τ sig) (afterConv m ρ c) ∗ ∃ r, prngReg c r)

/-! ## The regions as segments -/

set_option backward.isDefEq.respectTransparency.types false in
/-- The projection region: entered from the launch contents, left at afterProj. -/
def projSeg : Pipeline.RegionSeg (pcfgs (F := F)) noTables (pdats m ρ) () defs₀ 𝒱₀ noPairs noLevel 0 where
  win := launch0.win.to₀
  block_pos := launch0.block_pos
  stage_whole := launch0.stage_whole
  K := PEmpty
  osem k := k.elim
  ho := Pipeline.OwnSemFacts.none _
  hbody c := (projObligation (atLaunchV m ρ) c).loose
  hwaits := Pipeline.hwaits_of_owed_zero _ _ _ _ noPairs noLevel 0 fun _ _ => rfl
  pre c := iprop(StableHlo.held (c : Thread nD τ) (Pipeline.ucRefs τ sig) (atLaunch m ρ c) ∗ beside c)
  post c := iprop(StableHlo.held (c : Thread nD τ) (Pipeline.ucRefs τ sig) (afterProj m ρ c) ∗ beside c)
  X c := iprop(∃ r, prngReg c r)
  Y c := iprop(∃ r, prngReg c r)
  Z c := Pipeline.unscopedRest (Ix := Unit) (Name := ℕ) (U := UR sig nD τ) (Lvl := ℕ) spec0 c (atLaunchV m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (atLaunchV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (atLaunchV m ρ c) (afterProjV m ρ c) ((pdats m ρ 0 c).arrAt · cfg0.N) (projArrays m ρ c) (projRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from afterHost, left at afterConv; the generator register and the scoped rest
    go into the region's invariant (which carries the accumulator between points) and come back out. -/
def convSeg : Pipeline.RegionSeg (pcfgs (F := F)) noTables (pdats m ρ) () defs₀ 𝒱₀ noPairs noLevel 1 where
  win := launch1.win.to₀
  block_pos := launch1.block_pos
  stage_whole := launch1.stage_whole
  K := PEmpty
  osem k := k.elim
  ho := Pipeline.OwnSemFacts.none _
  hbody c := (convObligation (afterHostV m ρ) c).loose
  hwaits := Pipeline.hwaits_of_owed_zero _ _ _ _ noPairs noLevel 1 fun _ _ => rfl
  pre c := iprop(StableHlo.held (c : Thread nD τ) (Pipeline.ucRefs τ sig) (afterHost m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (afterHostV m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (afterHostV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (convOut (afterHostV m ρ) c).trans h
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (afterHostV m ρ c) (afterConvV m ρ c) ((pdats m ρ 1 c).arrAt · cfg1.N) (convArrays m ρ c) (convRest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) noTables (pdats m ρ) () defs₀ 𝒱₀ noPairs noLevel) :=
  [ .region (projSeg m ρ), .host (hostSeg m ρ), .region (convSeg m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = afterConv m ρ c b) :=
  Pipeline.θ_run_regions_kit (pcfgs (F := F)) noTables (pdats m ρ) () cellOf_inj emb₁ defs₀ 𝒱₀ noPairs noLevel m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ beside c)) (Tₙ := atEnd m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterConv m ρ c b)
    (hfin := fun c s' => by
      iintro ⟨⟨Hh, -⟩, HSI⟩
      unfold StableHlo.held
      imodintro
      iapply (pointsTo_read_all (Pipeline.ucRefs τ sig) (fun b => (((c : Thread nD τ)).1, b)) (afterConv m ρ c) s')
      isplitl [Hh] <;> iassumption)
    (hQ := fun s h c => h c)

/-- The run, read at the result and the arguments: the result array at what the aggregation region's write-backs
    leave, each argument as launched. -/
theorem run_read : θ_run defs (onTc (τ := τ) (main (F := F))) ⟨m, fun _ => 0, ρ⟩ (fun r => ∀ c : Dev nD,
      r.2.mem ((c.tc : Thread nD τ).loc main_v2) = (convDat (afterHostV m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (afterConv_arr m ρ c 3),
     (h c _ (mem_uc main_arg0 (by decide))).trans (afterConv_arg0 m ρ c),
     (h c _ (mem_uc main_arg1 (by decide))).trans (afterConv_arg1 m ρ c),
     (h c _ (mem_uc main_arg2 (by decide))).trans (afterConv_arg2 m ρ c),
     (h c _ (mem_uc main_arg3 (by decide))).trans (afterConv_arg3 m ρ c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_read m ρ)

end Cert.KernelIdeal.GC

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.Spec.lean ====
/-
  The specification: one graph-convolution layer on the extended reals.  support = X · W (an 8192×512 matrix by a
  512×512 matrix), out = A · support + b (an 8192×8192 matrix by support, the bias b added to every row), each
  product a finite sum of products, index by index.
-/
import Idealize.ShloMosaic.PureOps.Ideal
import Idealize.ShloMosaic.Lib.ValueIdx

noncomputable section

open scoped BigOperators

namespace GraphConvSpec

open Idealize.ShloMosaic Idealize.ShloMosaic.ValueIdx

/-- Row k, column q of X · W. -/
def support (X : FVec Ideal ⟨2, ![8192, 512]⟩ .f32) (W : FVec Ideal ⟨2, ![512, 512]⟩ .f32) (k : Fin 8192) (q : Fin 512) : EReal :=
  ∑ j : Fin 512, X (ix2 k j) * W (ix2 j q)

/-- Row r, column q of A · (X · W) + b. -/
def outAt (X : FVec Ideal ⟨2, ![8192, 512]⟩ .f32) (A : FVec Ideal ⟨2, ![8192, 8192]⟩ .f32) (W : FVec Ideal ⟨2, ![512, 512]⟩ .f32)
    (b : FVec Ideal ⟨1, ![512]⟩ .f32) (r : Fin 8192) (q : Fin 512) : EReal :=
  (∑ k : Fin 8192, A (ix2 r k) * support X W k q) + b (ix1 q)

/-- The layer's result as an array. -/
def out (X : FVec Ideal ⟨2, ![8192, 512]⟩ .f32) (A : FVec Ideal ⟨2, ![8192, 8192]⟩ .f32) (W : FVec Ideal ⟨2, ![512, 512]⟩ .f32)
    (b : FVec Ideal ⟨1, ![512]⟩ .f32) : FVec Ideal ⟨2, ![8192, 512]⟩ .f32 :=
  fun i => outAt X A W b (i 0) (i 1)

theorem out_apply (X : FVec Ideal ⟨2, ![8192, 512]⟩ .f32) (A : FVec Ideal ⟨2, ![8192, 8192]⟩ .f32) (W : FVec Ideal ⟨2, ![512, 512]⟩ .f32)
    (b : FVec Ideal ⟨1, ![512]⟩ .f32) (r : Fin 8192) (q : Fin 512) : out X A W b (ix2 r q) = outAt X A W b r q := rfl

end GraphConvSpec

end
-- ==== Proof.KI.Pieces.lean ====
/-
  The found pieces read back as values: what each case of the aggregation body leaves in the accumulator and in the
  output buffer, as the body's arithmetic of what it loaded — the adj block x0, the rows of support the chunk
  selects (a 2048-row rectangle of x1), the bias row x2, the accumulator as entered.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«152907_j996432413322_2_alg».proof.Proof.KI.Conv
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The rows of support a chunk multiplies by: 2048 rows from the chunk's offset, all 512 columns. -/
abbrev supRows (i : grid1.Coords) : Rect S8192x512 := Rect.unit (s := S8192x512) (k1_off1 i) S2048x512.size (k1_off1_inb i)

/-- A middle chunk leaves accumulator-as-entered + adj-block · support-rows. -/
theorem accMid_eq (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : ¬isLast i) (x0 : Vec F S1024x2048 .f32) (x1 : Vec F S8192x512 .bf16) (x2 : Vec F S1x512 .f32) (xs : Vec F S1024x512 .f32) :
    accMid c i arg2 harg2 arg3 harg3 arg4 harg4 arg5 harg5 arg6 harg6 hc0 hc1 x0 x1 x2 xs = k1_pay2 x0 (View.ld x1 (supRows i)) xs := by
  unfold accMid
  rw [View.read_writes_eq_canon _ _ _ (accCoverMid c i arg2 harg2 arg3 harg3 arg4 harg4 arg5 harg5 arg6 harg6 hc0 hc1 x0 x1 x2 xs)]
  unfold runMid
  dsimp only
  rw [View.canon_unit_zero hz]
  simp only [View.readAt_eq_ld, harg2.read_unread, harg3.read_unread, harg6.read_unread, View.ld_unit_zero (S := S1024x2048) hz, View.ld_unit_zero (S := S1024x512) hz]

/-- A first chunk leaves zeros + adj-block · support-rows: the body reads back the zeros it has just stored. -/
theorem accFirst_eq (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : isFirst i) (hc1 : ¬isLast i) (x0 : Vec F S1024x2048 .f32) (x1 : Vec F S8192x512 .bf16) (x2 : Vec F S1x512 .f32) :
    accFirst c i arg2 harg2 arg3 harg3 arg4 harg4 arg5 harg5 arg6 harg6 hc0 hc1 x0 x1 x2 = k1_pay2 x0 (View.ld x1 (supRows i)) k1_pay1 := by
  unfold accFirst
  rw [View.read_writes_eq_canon _ _ _ (accCoverFirst c i arg2 harg2 arg3 harg3 arg4 harg4 arg5 harg5 arg6 harg6 hc0 hc1 x0 x1 x2)]
  unfold runFirst
  dsimp only
  sl_unfold_run_names
  rw [View.canon_cons_unit_zero (S := S1024x512) hz, View.readCov_unit_zero (S := S1024x512) _ hz]
  simp only [View.readAt_eq_ld, harg2.read_unread, harg3.read_unread, View.ld_unit_zero (S := S1024x2048) hz]

/-- A last chunk leaves in the accumulator what a middle one does, -/
theorem accLast_eq (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) :
    accLast c i arg2 harg2 arg3 harg3 arg4 harg4 arg5 harg5 arg6 harg6 hc0 hc1 x0 x1 x2 xs = k1_pay2 x0 (View.ld x1 (supRows i)) xs := by
  unfold accLast
  rw [View.read_writes_eq_canon _ _ _ (accCoverLast c i arg2 harg2 arg3 harg3 arg4 harg4 arg5 harg5 arg6 harg6 hc0 hc1 x0 x1 x2 xs)]
  unfold runLast
  dsimp only
  sl_unfold_run_names
  rw [View.canon_unit_zero hz]
  simp only [View.readAt_eq_ld, harg2.read_unread, harg3.read_unread, harg6.read_unread, View.ld_unit_zero (S := S1024x2048) hz, View.ld_unit_zero (S := S1024x512) hz]

/-- and in the output buffer that total plus the bias row. -/
theorem outLast_eq (c : Dev nD) (i : grid1.Coords) (arg2 : Memref sig .tc .vmem S1024x2048 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬isFirst i) (hc1 : isLast i) (x0 : Vec F S1024x2048 .f32) (x1 : Vec F S8192x512 .bf16) (x2 : Vec F S1x512 .f32) (xs : Vec F S1024x512 .f32) :
    outLast c i arg2 harg2 arg3 harg3 arg4 harg4 arg5 harg5 arg6 harg6 hc0 hc1 x0 x1 x2 xs = k1_pay3 (k1_pay2 x0 (View.ld x1 (supRows i)) xs) x2 := by
  unfold outLast
  rw [View.read_writes_eq_canon _ _ _ (outCoverLast c i arg2 harg2 arg3 harg3 arg4 harg4 arg5 harg5 arg6 harg6 hc0 hc1 x0 x1 x2 xs)]
  unfold runLast
  dsimp only
  sl_unfold_run_names
  rw [View.canon_unit_zero hz, View.readCov_unit_zero (S := S1024x512) _ hz]
  simp only [View.readAt_eq_ld, harg2.read_unread, harg3.read_unread, harg4.read_unread, harg6.read_unread, View.ld_unit_zero (S := S1024x2048) hz, View.ld_unit_zero (S := S1024x512) hz, View.ld_unit_zero (S := S1x512) hz]

end Cert.KernelIdeal.GC

end
-- ==== Proof.KI.ProjValue.lean ====
/-
  The projection region's result array, on the extended reals: every entry (r, q) of the array the region writes
  is ∑ⱼ X(r, j) · W(j, q), X and W the two arrays the region reads.  The body's product at a block index is the
  finite sum (the matrix unit into a zero accumulator; the roundings to bf16 are the identity here); the point's
  block of X is rows 512·t … 512·t + 511; the 16 output blocks tile the array.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import proofs.«152907_j996432413322_2_alg».proof.Proof.LibPlainMatmul
import proofs.«152907_j996432413322_2_alg».proof.Proof.LibSumSplit
import proofs.«152907_j996432413322_2_alg».proof.Proof.Spec
import proofs.«152907_j996432413322_2_alg».proof.Proof.KI.Proj
import proofs.«152907_j996432413322_2_alg».proof.Proof.KI.Pieces
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The product of two 512×512 blocks at (p, q). -/
theorem projOut_apply (x0 x1 : Vec Ideal S512x512 .f32) (p q : Fin 512) :
    projOut x0 x1 (ix2 p q) = ∑ j : Fin 512, x0 (ix2 p j) * x1 (ix2 j q) := by
  unfold projOut
  rw [View.canon_unit_zero hz]
  simp only [View.ld_unit_zero (S := S512x512) hz]
  unfold k0_pay1
  exact PlainMatmul.plainMatmul_apply (M := 512) (K := 512) (N := 512) none (truncf .bf16 x0 bitsLt_bf16_f32) (truncf .bf16 x1 bitsLt_bf16_f32) p q

/-- The index maps over the grid: X's and the result's block moves down one block per point, W's stays. -/
theorem projIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 512·t + p of the array. -/
abbrev projRow (t : Fin cfg0.N) (p : Fin 512) : Fin 8192 :=
  ⟨512 * t.val + p.val, by have := t.isLt; have hN : cfg0.N = 16 := N_0; omega⟩

section Region
variable (V : (c : Dev nD) → (b : Ref sig .tc) → Buf (Elt Ideal) ((c : Thread nD τ).loc b))

theorem projBlk0_apply (c : Dev nD) (t : Fin cfg0.N) (p j : Fin 512) :
    projBlk V c 0 t (ix2 p j) = V c main_arg0 (ix2 (projRow t p) j) := by
  obtain ⟨e0, e1, -⟩ := projIdx t
  unfold projBlk
  rw [View.read_apply]
  show V c main_arg0 _ = V c main_arg0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 512 + 1 * j.val = j.val; rw [e1]; omega

theorem projBlk1_apply (c : Dev nD) (t : Fin cfg0.N) (j q : Fin 512) :
    projBlk V c 1 t (ix2 j q) = V c main_arg2 (ix2 j q) := by
  obtain ⟨-, -, e2, e3, -⟩ := projIdx t
  unfold projBlk
  rw [View.read_apply]
  show V c main_arg2 _ = V c main_arg2 _
  congr 1
  funext a
  apply Fin.ext
  match a with
  | ⟨0, _⟩ => show win0_1.index t (0 : Fin 2) * 512 + 1 * j.val = j.val; rw [e2]; omega
  | ⟨1, _⟩ => show win0_1.index t (1 : Fin 2) * 512 + 1 * q.val = q.val; rw [e3]; omega

/-- X · W as an array. -/
def supportArr (X : FVec Ideal S8192x512 .f32) (W : FVec Ideal S512x512 .f32) : S8192x512.Idx → EReal :=
  fun i => GraphConvSpec.support X W (i 0) (i 1)

/-- What point t writes back is block t of X · W. -/
theorem projFlushed (c : Dev nD) (t : Fin cfg0.N) :
    (projDat V c).flushed 2 t = ((cfg0.win 2).blk t).view.read (Elt Ideal) (supportArr (V c main_arg0) (V c main_arg2)) := by
  show (cfg0.win 2).cut (grid0.coords t) ((projDat V c).after 2 t) = _
  rw [projAfter2]
  obtain ⟨-, -, -, -, e4, e5⟩ := projIdx t
  funext y
  obtain ⟨p, q, rfl⟩ : ∃ (p : Fin 512) (q : Fin 512), y = ix2 p q := ⟨y 0, y 1, eq_ix2 y⟩
  rw [View.read_apply]
  show projOut (projBlk V c 0 t) (projBlk V c 1 t) (ix2 p q) = supportArr (V c main_arg0) (V c main_arg2) (((cfg0.win 2).blk t).view.emb (ix2 p q))
  have hemb : ((cfg0.win 2).blk t).view.emb (ix2 p q) = ix2 (projRow t p) q := by
    funext a
    apply Fin.ext
    match a with
    | ⟨0, _⟩ => show win0_2.index t (0 : Fin 2) * 512 + 1 * p.val = 512 * t.val + p.val; rw [e4]; omega
    | ⟨1, _⟩ => show win0_2.index t (1 : Fin 2) * 512 + 1 * q.val = q.val; rw [e5]; omega
  rw [hemb, projOut_apply]
  simp only [projBlk0_apply, projBlk1_apply]
  rfl

theorem projMem (t : Fin cfg0.N) (i : S8192x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- Row r lies in the block of point r / 512. -/
theorem projCovered (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, e4, e5⟩ := projIdx t
  refine ⟨t, flush0_2 t, ?_⟩
  rw [projMem]
  intro a
  match a with
  | ⟨0, _⟩ => show win0_2.index t (0 : Fin 2) * 512 ≤ (i 0).val ∧ (i 0).val < win0_2.index t (0 : Fin 2) * 512 + 512; rw [e4, ht]; omega
  | ⟨1, _⟩ => show win0_2.index t (1 : Fin 2) * 512 ≤ (i 1).val ∧ (i 1).val < win0_2.index t (1 : Fin 2) * 512 + 512; rw [e5]; omega

/-- The array the projection region leaves is X · W. -/
theorem projFinal (c : Dev nD) : (projDat V c).arrAt 2 cfg0.N = supportArr (V c main_arg0) (V c main_arg2) :=
  (projDat V c).arrAt_eq_of_cover 2 _ (fun t _ => projFlushed V c t) projCovered

end Region

end Cert.KernelIdeal.GC

end
-- ==== Proof.KI.ConvValue.lean ====
/-
  The aggregation region's result array, on the extended reals: every entry (r, q) of the array the region writes
  is ∑ₖ A(r, k) · S(k, q) + B(0, q) — A the 8192×8192 array, S the 8192×512 array and B the 1×512 row the region
  reads.  A grid point (row block i, chunk kk) adds to the accumulator the partial sum over the 2048 columns of
  chunk kk; the accumulator starts from zero at chunk 0; the four partial sums of a row block, added in order onto
  zero, are the whole sum (addition on the extended reals is associative and 0 is neutral: no finiteness is used);
  the last chunk stores that total plus the bias row; the 8 output blocks tile the array.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import proofs.«152907_j996432413322_2_alg».proof.Proof.LibPlainMatmul
import proofs.«152907_j996432413322_2_alg».proof.Proof.LibSumSplit
import proofs.«152907_j996432413322_2_alg».proof.Proof.Spec
import proofs.«152907_j996432413322_2_alg».proof.Proof.KI.Conv
import proofs.«152907_j996432413322_2_alg».proof.Proof.KI.Pieces
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The body's arithmetic at a block index -/

/-- The cleared accumulator reads 0. -/
theorem zeros_apply (y : S1024x512.Idx) : k1_pay1 (F := Ideal) y = 0 := by
  unfold k1_pay1
  rw [shapeCast_self]
  exact Ideal.ofBits_zero_f32

/-- A chunk's partial sum at (p, q): the adj block's row p against the selected rows' column q. -/
def chunkSum (x0 : Vec Ideal S1024x2048 .f32) (s : Vec Ideal S2048x512 .bf16) (p : Fin 1024) (q : Fin 512) : EReal :=
  ∑ j : Fin 2048, x0 (ix2 p j) * s (ix2 j q)

/-- One accumulation step at (p, q): what the accumulator held plus the chunk's partial sum. -/
theorem accStep_apply (x0 : Vec Ideal S1024x2048 .f32) (s : Vec Ideal S2048x512 .bf16) (xs : Vec Ideal S1024x512 .f32)
    (p : Fin 1024) (q : Fin 512) :
    k1_pay2 x0 s xs (ix2 p q) = xs (ix2 p q) + chunkSum x0 s p q := by
  unfold k1_pay2
  rw [shapeCast_self, shapeCast_self]
  exact congrArg (fun z => xs (ix2 p q) + z)
    (PlainMatmul.plainMatmul_apply (M := 1024) (K := 2048) (N := 512) (φ₁ := .bf16) (φ₂ := .bf16) none (truncf .bf16 x0 bitsLt_bf16_f32) s p q)

/-- The output store at (p, q): the total plus the bias row's entry q. -/
theorem addBias_apply (v19 : Vec Ideal S1024x512 .f32) (v20 : Vec Ideal S1x512 .f32) (p : Fin 1024) (q : Fin 512) :
    k1_pay3 v19 v20 (ix2 p q) = v19 (ix2 p q) + v20 (ix2 (0 : Fin 1) q) := by
  unfold k1_pay3
  rw [shapeCast_self]
  exact congrArg (fun z => v19 (ix2 p q) + z) (broadcastTo_1b_ab_apply v20 broadcasts_S1x512_S1024x512 p q)

/-! ## A sum over 8192 columns as four chunks of 2048 -/

/-- The partial sum of g over chunk kk. -/
def chunkOf (g : Fin 8192 → EReal) (kk : ℕ) (hk : kk < 4) : EReal :=
  ∑ s : Fin 2048, g ⟨2048 * kk + s.val, by have := s.isLt; omega⟩

theorem sum_four_chunks (g : Fin 8192 → EReal) :
    ∑ k : Fin 8192, g k = (((0 + chunkOf g 0 (by omega)) + chunkOf g 1 (by omega)) + chunkOf g 2 (by omega)) + chunkOf g 3 (by omega) := by
  rw [zero_add]
  refine (SumSplit.sum_blocks 4 2048 g).trans ?_
  rw [Fin.sum_univ_four]
  rfl

/-! ## The index maps over the grid -/

theorem convIdx : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

section Region
variable (V : (c : Dev nD) → (b : Ref sig .tc) → Buf (Elt Ideal) ((c : Thread nD τ).loc b))

/-- The three arrays the region reads, at their float types. -/
abbrev arrA (c : Dev nD) : FVec Ideal S8192x8192 .f32 := V c main_arg1
abbrev arrS (c : Dev nD) : FVec Ideal S8192x512 .bf16 := V c main_v0
abbrev arrB (c : Dev nD) : FVec Ideal S1x512 .f32 := V c main_v1

/-- Entry (p, s) of point n's block of A: row 1024·(n / 4) + p, column 2048·(n % 4) + s. -/
theorem convBlk0_apply (c : Dev nD) (n : ℕ) (hn : n < cfg1.N) (p : Fin 1024) (s : Fin 2048) :
    convBlk V c 0 ⟨n, hn⟩ (ix2 p s) = V c main_arg1 (ix2 (⟨1024 * (n / 4) + p.val, by have hN : cfg1.N = 32 := N_1; omega⟩ : Fin 8192) (⟨2048 * (n % 4) + s.val, by omega⟩ : Fin 8192)) := by
  obtain ⟨e0, e1, -⟩ := convIdx ⟨n, hn⟩
  unfold convBlk
  rw [View.read_apply]
  show V c main_arg1 _ = V c main_arg1 _
  congr 1
  funext a
  apply Fin.ext
  match a with
  | ⟨0, _⟩ => show win1_0.index ⟨n, hn⟩ (0 : Fin 2) * 1024 + 1 * p.val = 1024 * (n / 4) + p.val; rw [e0]; show n / 4 * 1024 + 1 * p.val = _; omega
  | ⟨1, _⟩ => show win1_0.index ⟨n, hn⟩ (1 : Fin 2) * 2048 + 1 * s.val = 2048 * (n % 4) + s.val; rw [e1]; show n % 4 * 2048 + 1 * s.val = _; omega

/-- Entry (s, q) of the rows of S that point n's chunk selects: row 2048·(n % 4) + s. -/
theorem convSup_apply (c : Dev nD) (n : ℕ) (hn : n < cfg1.N) (s : Fin 2048) (q : Fin 512) :
    View.ld (convBlk V c 1 ⟨n, hn⟩) (supRows (grid1.coords ⟨n, hn⟩)) (ix2 s q) = V c main_v0 (ix2 (⟨2048 * (n % 4) + s.val, by omega⟩ : Fin 8192) q) := by
  obtain ⟨-, -, e2, e3, -, -, -, -, e8, e9⟩ := convIdx ⟨n, hn⟩
  unfold convBlk
  show View.read _ _ _ ((supRows (grid1.coords ⟨n, hn⟩)).idx (ix2 s q)) = _
  rw [View.read_apply]
  show V c main_v0 _ = V c main_v0 _
  congr 1
  funext a
  apply Fin.ext
  match a with
  | ⟨0, _⟩ => show win1_1.index ⟨n, hn⟩ (0 : Fin 2) * 8192 + 1 * (k1_off1 (grid1.coords ⟨n, hn⟩) (0 : Fin 2) + 1 * s.val) = 2048 * (n % 4) + s.val; rw [e2, e8]; show 0 * 8192 + 1 * (2048 * (n % 4) + 1 * s.val) = _; omega
  | ⟨1, _⟩ => show win1_1.index ⟨n, hn⟩ (1 : Fin 2) * 512 + 1 * (k1_off1 (grid1.coords ⟨n, hn⟩) (1 : Fin 2) + 1 * q.val) = q.val; rw [e3, e9]; omega

/-- The bias row's block is the row. -/
theorem convBlk2_apply (c : Dev nD) (t : Fin cfg1.N) (q : Fin 512) :
    convBlk V c 2 t (ix2 (0 : Fin 1) q) = V c main_v1 (ix2 (0 : Fin 1) q) := by
  obtain ⟨-, -, -, -, e4, e5, -⟩ := convIdx t
  unfold convBlk
  rw [View.read_apply]
  show V c main_v1 _ = V c main_v1 _
  congr 1
  funext a
  apply Fin.ext
  match a with
  | ⟨0, _⟩ => show win1_2.index t (0 : Fin 2) * 1 + 1 * 0 = 0; rw [e4]
  | ⟨1, _⟩ => show win1_2.index t (1 : Fin 2) * 512 + 1 * q.val = q.val; rw [e5]; omega

/-- The chunk's partial sum as the body computes it at point n. -/
def chunkN (c : Dev nD) (n : ℕ) (hn : n < cfg1.N) (p : Fin 1024) (q : Fin 512) : EReal :=
  chunkSum (convBlk V c 0 ⟨n, hn⟩) (View.ld (convBlk V c 1 ⟨n, hn⟩) (supRows (grid1.coords ⟨n, hn⟩))) p q

/-- It is chunk n % 4 of row 1024·(n / 4) + p's sum. -/
theorem chunkN_eq (c : Dev nD) (n : ℕ) (hn : n < cfg1.N) (p : Fin 1024) (q : Fin 512) (i kk : ℕ) (hi : n / 4 = i) (hk : n % 4 = kk)
    (hi8 : i < 8) (hk4 : kk < 4) :
    chunkN V c n hn p q = chunkOf (fun k => arrA V c (ix2 (⟨1024 * i + p.val, by omega⟩ : Fin 8192) k) * arrS V c (ix2 k q)) kk hk4 := by
  subst hi hk
  unfold chunkN chunkSum chunkOf
  refine Finset.sum_congr rfl fun s _ => ?_
  rw [convBlk0_apply, convSup_apply]

/-- The accumulator after point n at (p, q): zero at a first chunk, else what the point before left, plus this
    point's partial sum. -/
theorem accAt_apply (c : Dev nD) (n : ℕ) (hn : n < cfg1.N) (p : Fin 1024) (q : Fin 512) :
    accAt V c n hn (ix2 p q) = (if n % 4 = 0 then 0 else accAt V c (n - 1) (by omega) (ix2 p q)) + chunkN V c n hn p q := by
  by_cases h0 : n % 4 = 0
  · have e : accAt V c n hn = _ := accAt_first V c ⟨n, hn⟩ h0
    rw [e, accFirst_eq, if_pos h0]
    refine (accStep_apply _ _ _ p q).trans ?_
    rw [zeros_apply]; rfl
  · by_cases h1 : n % 4 = 3
    · have e : accAt V c n hn = _ := accAt_last V c ⟨n, hn⟩ h0 h1
      rw [e, accLast_eq, if_neg h0]
      exact accStep_apply _ _ _ p q
    · have e : accAt V c n hn = _ := accAt_mid V c ⟨n, hn⟩ h0 h1
      rw [e, accMid_eq, if_neg h0]
      exact accStep_apply _ _ _ p q

/-- A · S + B as an array. -/
def outArr (A : FVec Ideal S8192x8192 .f32) (S : FVec Ideal S8192x512 .bf16) (B : FVec Ideal S1x512 .f32) : S8192x512.Idx → EReal :=
  fun i => (∑ k : Fin 8192, A (ix2 (i 0) k) * S (ix2 k (i 1))) + B (ix2 (0 : Fin 1) (i 1))

/-- What a last chunk writes back is its row block of A · S + B. -/
theorem convFlushed (c : Dev nD) (t : Fin cfg1.N) (hf : (cfg1.win 3).flush t = true) :
    (convDat V c).flushed 3 t = ((cfg1.win 3).blk t).view.read (Elt Ideal) (outArr (V c main_arg1) (V c main_v0) (V c main_v1)) := by
  have h3 : t.val % 4 = 3 := (flush1_3 t).mp hf
  have hN : cfg1.N = 32 := N_1
  have hlt : t.val < cfg1.N := t.isLt
  obtain ⟨-, -, -, -, -, -, e6, e7, -⟩ := convIdx t
  show (cfg1.win 3).cut (grid1.coords t) ((convDat V c).after 3 t) = _
  rw [convAfter3, outAt_last V c t h3, outLast_eq]
  funext y
  obtain ⟨p, q, rfl⟩ : ∃ (p : Fin 1024) (q : Fin 512), y = ix2 p q := ⟨y 0, y 1, eq_ix2 y⟩
  rw [View.read_apply]
  have hemb : ((cfg1.win 3).blk t).view.emb (ix2 p q) = ix2 (⟨1024 * (t.val / 4) + p.val, by omega⟩ : Fin 8192) q := by
    funext a
    apply Fin.ext
    match a with
    | ⟨0, _⟩ => show win1_3.index t (0 : Fin 2) * 1024 + 1 * p.val = 1024 * (t.val / 4) + p.val; rw [e6]; omega
    | ⟨1, _⟩ => show win1_3.index t (1 : Fin 2) * 512 + 1 * q.val = q.val; rw [e7]; omega
  show k1_pay3 (k1_pay2 (convBlk V c 0 t) (View.ld (convBlk V c 1 t) (supRows (grid1.coords t))) (accAt V c (t.val - 1) (Nat.lt_of_le_of_lt (Nat.sub_le _ _) t.isLt))) (convBlk V c 2 t) (ix2 p q)
    = outArr (arrA V c) (arrS V c) (arrB V c) (((cfg1.win 3).blk t).view.emb (ix2 p q))
  rw [hemb]
  refine (addBias_apply _ _ p q).trans ?_
  refine (congrArg₂ (fun a b => a + b) (accStep_apply _ _ _ p q) (convBlk2_apply V c t q)).trans ?_
  show (accAt V c (t.val - 1) (Nat.lt_of_le_of_lt (Nat.sub_le _ _) t.isLt) (ix2 p q) + chunkN V c t.val hlt p q) + arrB V c (ix2 (0 : Fin 1) q)
    = (∑ k : Fin 8192, arrA V c (ix2 (⟨1024 * (t.val / 4) + p.val, by omega⟩ : Fin 8192) k) * arrS V c (ix2 k q)) + arrB V c (ix2 (0 : Fin 1) q)
  refine congrArg (fun z => z + arrB V c (ix2 (0 : Fin 1) q)) ?_
  rw [sum_four_chunks]
  rw [accAt_apply V c (t.val - 1) (by omega) p q, if_neg (by omega),
    accAt_apply V c (t.val - 1 - 1) (by omega) p q, if_neg (by omega),
    accAt_apply V c (t.val - 1 - 1 - 1) (by omega) p q, if_pos (by omega)]
  rw [chunkN_eq V c t.val hlt p q (t.val / 4) 3 rfl h3 (by omega) (by omega),
    chunkN_eq V c (t.val - 1) (by omega) p q (t.val / 4) 2 (by omega) (by omega) (by omega) (by omega),
    chunkN_eq V c (t.val - 1 - 1) (by omega) p q (t.val / 4) 1 (by omega) (by omega) (by omega) (by omega),
    chunkN_eq V c (t.val - 1 - 1 - 1) (by omega) p q (t.val / 4) 0 (by omega) (by omega) (by omega) (by omega)]

theorem convMem (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v2).slice (win1_3.rect t)).set ↔ _
  rw [View.set_slice_whole, Rect.mem_set_unit]
  exact Iff.rfl

/-- Row r lies in the block the last chunk of row block r / 1024 writes back. -/
theorem convCovered (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 32 := N_1
  obtain ⟨t, ht⟩ : ∃ t : Fin cfg1.N, t.val = 4 * ((i 0).val / 1024) + 3 := ⟨⟨4 * ((i 0).val / 1024) + 3, by omega⟩, rfl⟩
  obtain ⟨-, -, -, -, -, -, e6, e7, -⟩ := convIdx t
  refine ⟨t, (flush1_3 t).mpr (by omega), ?_⟩
  rw [convMem]
  intro a
  match a with
  | ⟨0, _⟩ => show win1_3.index t (0 : Fin 2) * 1024 ≤ (i 0).val ∧ (i 0).val < win1_3.index t (0 : Fin 2) * 1024 + 1024; rw [e6, ht]; omega
  | ⟨1, _⟩ => show win1_3.index t (1 : Fin 2) * 512 ≤ (i 1).val ∧ (i 1).val < win1_3.index t (1 : Fin 2) * 512 + 512; rw [e7]; omega

/-- The array the aggregation region leaves is A · S + B. -/
theorem convFinal (c : Dev nD) : (convDat V c).arrAt 3 cfg1.N = outArr (V c main_arg1) (V c main_v0) (V c main_v1) :=
  (convDat V c).arrAt_eq_of_cover 3 _ (fun t hf => convFlushed V c t hf) convCovered

end Region

end Cert.KernelIdeal.GC

end
-- ==== Proof.KI.Result.lean ====
/-
  The result array of the whole run, on the extended reals, is the specification of the arguments: the aggregation
  region reads A = the adjacency argument as launched, S = what the projection region left (X · W of the inp and
  weight arguments), B = the bias argument laid out as a row by the host; so A · S + B is the layer's value.
-/
import proofs.«152907_j996432413322_2_alg».proof.Proof.Gen.KernelIdeal.Launch
import proofs.«152907_j996432413322_2_alg».proof.Proof.Gen.KernelIdeal.Skeleton
import proofs.«152907_j996432413322_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import proofs.«152907_j996432413322_2_alg».proof.Proof.LibPlainMatmul
import proofs.«152907_j996432413322_2_alg».proof.Proof.LibSumSplit
import proofs.«152907_j996432413322_2_alg».proof.Proof.Spec
import proofs.«152907_j996432413322_2_alg».proof.Proof.KI.Run
import proofs.«152907_j996432413322_2_alg».proof.Proof.KI.ProjValue
import proofs.«152907_j996432413322_2_alg».proof.Proof.KI.ConvValue
set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (ρ : Dev nD → PrngReg)

/-- The adjacency array reaches the aggregation region as launched. -/
theorem entryA (c : Dev nD) : afterHostV m ρ c main_arg1 = m ((c : Thread nD τ).loc main_arg1) :=
  (afterHost_of_ne m ρ c main_arg1 (by decide)).trans (afterProj_of_ne m ρ c main_arg1 (by decide))

/-- The support array reaches it as the projection region left it: X · W. -/
theorem entryS (c : Dev nD) :
    afterHostV m ρ c main_v0 = supportArr (m ((c : Thread nD τ).loc main_arg0)) (m ((c : Thread nD τ).loc main_arg2)) :=
  (afterHost_of_ne m ρ c main_v0 (by decide)).trans ((afterProj_arr m ρ c 2).trans (projFinal (atLaunchV m ρ) c))

/-- The bias row is the bias argument reshaped. -/
theorem entryB (c : Dev nD) :
    afterHostV m ρ c main_v1 = shapeCast S1x512 (m ((c : Thread nD τ).loc main_arg3)) shapeCasts_S512_S1x512 := by
  show StableHlo.after hostOps1 (afterProj m ρ c) (Proc.devRef .tc main_v1) = _
  after_results
  rw [afterProj_of_ne m ρ c main_arg3 (by decide)]
  rfl

/-- The run's result array is the layer's value of the four arguments. -/
theorem result_eq (c : Dev nD) :
    (convDat (afterHostV m ρ) c).arrAt 3 cfg1.N
      = GraphConvSpec.out (m ((c : Thread nD τ).loc main_arg0)) (m ((c : Thread nD τ).loc main_arg1)) (m ((c : Thread nD τ).loc main_arg2)) (m ((c : Thread nD τ).loc main_arg3)) := by
  rw [convFinal]
  show outArr (afterHostV m ρ c main_arg1) (afterHostV m ρ c main_v0) (afterHostV m ρ c main_v1) = _
  rw [entryA, entryS, entryB]
  funext i
  obtain ⟨r, q, rfl⟩ : ∃ (r : Fin 8192) (q : Fin 512), i = ix2 r q := ⟨i 0, i 1, eq_ix2 i⟩
  show (∑ k : Fin 8192, _ * supportArr _ _ (ix2 k q)) + shapeCast S1x512 _ _ (ix2 (0 : Fin 1) q) = GraphConvSpec.outAt _ _ _ _ r q
  rw [shapeCast_a_1a_apply]
  rfl

end Cert.KernelIdeal.GC

end
-- ==== Proof.RefIsSpec.lean ====
/-
  The reference computes the specification: its two matrix products are the sums over the contracted axis, its two
  broadcasts lay the bias over every row, its last operation adds; read at an index (r, q) that is
  ∑ₖ A(r,k) · (∑ⱼ X(k,j) · W(j,q)) + b(q).
-/
import proofs.«152907_j996432413322_2_alg».proof.Proof.Gen.ReferenceIdeal.Run
import proofs.«152907_j996432413322_2_alg».proof.Proof.Gen.ReferenceIdeal.Read
import proofs.«152907_j996432413322_2_alg».proof.Proof.Spec

noncomputable section

open scoped BigOperators

namespace Cert.ReferenceIdeal.IsSpec

open Cert.ReferenceIdeal Cert.ReferenceIdeal.Read Idealize.ShloMosaic Idealize.ShloMosaic.ValueIdx

theorem ref_eq (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal)) :
    val_main_v4 (F := Ideal) x0 x1 x2 x3 = GraphConvSpec.out x0 x1 x2 x3 := by
  funext i
  obtain ⟨r, q, rfl⟩ : ∃ (r : Fin 8192) (q : Fin 512), i = ix2 r q := ⟨i 0, i 1, eq_ix2 i⟩
  have e1 : ∀ k : Fin 8192, lidx_main_v1 (ix2 r q) k = ix2 r k := fun k => funext fun a => Fin.ext (by
    match a with | ⟨0, _⟩ => rfl | ⟨1, _⟩ => rfl)
  have e2 : ∀ k : Fin 8192, ridx_main_v1 (ix2 r q) k = ix2 k q := fun k => funext fun a => Fin.ext (by
    match a with | ⟨0, _⟩ => rfl | ⟨1, _⟩ => rfl)
  have e3 : ∀ (k : Fin 8192) (j : Fin 512), lidx_main_v0 (ix2 k q) j = ix2 k j := fun k j => funext fun a => Fin.ext (by
    match a with | ⟨0, _⟩ => rfl | ⟨1, _⟩ => rfl)
  have e4 : ∀ (k : Fin 8192) (j : Fin 512), ridx_main_v0 (ix2 k q) j = ix2 j q := fun k j => funext fun a => Fin.ext (by
    match a with | ⟨0, _⟩ => rfl | ⟨1, _⟩ => rfl)
  have e5 : idx_main_v2 (idx_main_v3 (ix2 r q)) = ix1 q := funext fun a => Fin.ext (by
    match a with | ⟨0, _⟩ => rfl)
  rw [val_main_v4_apply, val_main_v1_apply, val_main_v3_apply, val_main_v2_apply, e5, GraphConvSpec.out_apply]
  simp only [e1, e2, val_main_v0_apply, e3, e4]
  rfl

end Cert.ReferenceIdeal.IsSpec

end
-- ==== Proof.lean ====
/-
  One graph-convolution layer, out = A · (X · W) + b, computed by two pipelined kernels — a projection X · W
  written in bf16 and an aggregation that accumulates A · support over four column chunks per row block and adds
  the bias at the last — against the two plain matrix products and the broadcast addition of the reference.

  On the extended reals every format change is the identity, a matrix-unit product into a zero accumulator and
  the reference's product are the same finite sum, and the kernel's four partial sums added in order onto zero
  are the reference's one sum over all 8192 columns: addition is associative and commutative there and 0 is
  neutral, so the equality holds for every extended-real input and the finiteness precondition is not used.

  The three frames: each kernel program runs through its two regions and the host reshape between them, every
  argument array left as launched (Proof/K/Run.lean at the word level, Proof/KI/Run.lean at the ideal values);
  the reference is a straight line of five host operations.  No operation of the kernel was rewritten on the way
  to its idealization, so there is nothing to preserve.
-/
import proofs.«152907_j996432413322_2_alg».proof.Defs
import proofs.«152907_j996432413322_2_alg».proof.Proof.Gen.Kernel
import proofs.«152907_j996432413322_2_alg».proof.Proof.Gen.KernelIdeal
import proofs.«152907_j996432413322_2_alg».proof.Proof.Gen.ReferenceIdeal
import proofs.«152907_j996432413322_2_alg».proof.Proof.Gen.Pre_finite_inputs
import proofs.«152907_j996432413322_2_alg».proof.Proof.Gen.ReferenceIdeal.Run
import proofs.«152907_j996432413322_2_alg».proof.Proof.Gen.ReferenceIdeal.Read
import proofs.«152907_j996432413322_2_alg».proof.Proof.K.Run
import proofs.«152907_j996432413322_2_alg».proof.Proof.KI.Run
import proofs.«152907_j996432413322_2_alg».proof.Proof.KI.Result
import proofs.«152907_j996432413322_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GC.frame m ρ
theorem frame_ki : Cert.frame_KernelIdeal := fun m ρ _ => Cert.KernelIdeal.GC.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's value of the (agreeing) arguments in their result arrays. -/
theorem algebraic : Cert.algebraic_KernelIdeal_ReferenceIdeal := by
  intro m ρ m' ρ' _ hagree
  refine ⟨fun c => GraphConvSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.GC.result_eq m ρ c), (h c).2⟩)
      (Cert.KernelIdeal.GC.run_read (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v4_eq, Cert.ReferenceIdeal.IsSpec.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
